-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S64x1 : Shape := ⟨2, ![64, 1]⟩
abbrev S2x64 : Shape := ⟨2, ![2, 64]⟩
abbrev S2 : Shape := ⟨1, ![2]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S64x1 : S_.BroadcastsInDim S64x1 (![] : Fin 0 → Fin S64x1.rank)
  reducesTo_S64x1_S_d0_1 : S64x1.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S64 .f32) (main_arg8 : FVec F S2x64 .f32) (main_arg9 : FVec F S2 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S1x64 .f32) (main_arg5 : FVec F S1 .f32) (main_arg6 : FVec F S64x1 .f32) (main_arg7 : FVec F S64 .f32) (main_arg8 : FVec F S2x64 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S100000 .f32) (main_arg2 : FVec F S64x64 .f32) (main_arg3 : FVec F S64 .f32) (main_arg4 : FVec F S1x64 .f32) (main_arg5 : FVec F S1 .f32) (main_arg6 : FVec F S64x1 .f32) (main_arg7 : FVec F S64 .f32) (main_arg8 : FVec F S2x64 .f32) (main_arg9 : FVec F S2 .f32) (main_arg10 : IVec S2x1600000 32) (main_arg11 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S100000 : Shape := ⟨1, ![100000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S64x1 : Shape := ⟨2, ![64, 1]⟩
abbrev S2x64 : Shape := ⟨2, ![2, 64]⟩
abbrev S2 : Shape := ⟨1, ![2]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S10000x64 : Shape := ⟨2, ![10000, 64]⟩
abbrev S1x1 : Shape := ⟨2, ![1, 1]⟩
abbrev S1x2 : Shape := ⟨2, ![1, 2]⟩
abbrev S100000x2 : Shape := ⟨2, ![100000, 2]⟩
abbrev S10000x2 : Shape := ⟨2, ![10000, 2]⟩
abbrev S10000x1 : Shape := ⟨2, ![10000, 1]⟩
abbrev S64x2 : Shape := ⟨2, ![64, 2]⟩

abbrev nBuf : Space → Nat
  | .hbm => 190
  | .vmem => 16
  | .smem => 0
  | _ => 0

abbrev hbmTy0_0 (i : Nat) : BufTy := match i % 128 with
  | 0 => ⟨S100000x64, .f32⟩
  | 1 => ⟨S100000, .f32⟩
  | 2 => ⟨S64x64, .f32⟩
  | 3 => ⟨S64, .f32⟩
  | 4 => ⟨S1x64, .f32⟩
  | 5 => ⟨S1, .f32⟩
  | 6 => ⟨S64x1, .f32⟩
  | 7 => ⟨S64, .f32⟩
  | 8 => ⟨S2x64, .f32⟩
  | 9 => ⟨S2, .f32⟩
  | 10 => ⟨S2x1600000, .i32⟩
  | 11 => ⟨S2x1600000, .i32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .i1⟩
  | 35 => ⟨S1600000x1, .i1⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S1600000x64, .i1⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S1x1600000, .i32⟩
  | 54 => ⟨S1600000, .i32⟩
  | 55 => ⟨S1x1600000, .i32⟩
  | 56 => ⟨S1600000, .i32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000, .f32⟩
  | 75 => ⟨S1600000, .i1⟩
  | 76 => ⟨S1600000x1, .i1⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S_, .f32⟩
  | 87 => ⟨S1600000x64, .i1⟩
  | 88 => ⟨S1600000x64, .f32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S1x64, .f32⟩
  | 99 => ⟨S100000x64, .f32⟩
  | 100 => ⟨S1x1600000, .i32⟩
  | 101 => ⟨S1600000, .i32⟩
  | 102 => ⟨S1x1600000, .i32⟩
  | 103 => ⟨S1600000, .i32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S1600000, .i1⟩
  | 123 => ⟨S1600000x1, .i1⟩
  | 124 => ⟨S_, .i32⟩
  | 125 => ⟨S1600000, .i32⟩
  | 126 => ⟨S1600000, .i1⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S_, .f32⟩
  | 6 => ⟨S1600000x64, .i1⟩
  | 7 => ⟨S1600000x64, .f32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S1600000, .i1⟩
  | 36 => ⟨S1600000x1, .i1⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S_, .f32⟩
  | 47 => ⟨S1600000x64, .i1⟩
  | 48 => ⟨S1600000x64, .f32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S1x1, .f32⟩
  | 59 => ⟨S1x64, .f32⟩
  | 60 => ⟨S1x2, .f32⟩
  | 61 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x1, .f32⟩
  | .local _ .vmem, ⟨10, _⟩ => ⟨S64x1, .f32⟩
  | .local _ .vmem, ⟨11, _⟩ => ⟨S1x64, .f32⟩
  | .local _ .vmem, ⟨12, _⟩ => ⟨S2x64, .f32⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_17 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_19 : Ref sig .tc := ⟨.hbm, 124, rfl⟩
abbrev main_v87 : Ref sig .tc := ⟨.hbm, 125, rfl⟩
abbrev main_v88 : Ref sig .tc := ⟨.hbm, 126, rfl⟩
abbrev main_c_20 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_call2_v0 : Ref sig .tc := ⟨.hbm, 134, rfl⟩
abbrev main_call2_v1 : Ref sig .tc := ⟨.hbm, 135, rfl⟩
abbrev main_v94 : Ref sig .tc := ⟨.hbm, 136, rfl⟩
abbrev main_cst_22 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_23 : Ref sig .tc := ⟨.hbm, 145, rfl⟩
abbrev main_v102 : Ref sig .tc := ⟨.hbm, 146, rfl⟩
abbrev main_v103 : Ref sig .tc := ⟨.hbm, 147, rfl⟩
abbrev main_c_24 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_25 : Ref sig .tc := ⟨.hbm, 154, rfl⟩
abbrev main_v109 : Ref sig .tc := ⟨.hbm, 155, rfl⟩
abbrev main_v110 : Ref sig .tc := ⟨.hbm, 156, rfl⟩
abbrev main_c_26 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_27 : Ref sig .tc := ⟨.hbm, 165, rfl⟩
abbrev main_v118 : Ref sig .tc := ⟨.hbm, 166, rfl⟩
abbrev main_v119 : Ref sig .tc := ⟨.hbm, 167, rfl⟩
abbrev main_c_28 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_29 : Ref sig .tc := ⟨.hbm, 174, rfl⟩
abbrev main_call3_v0 : Ref sig .tc := ⟨.hbm, 175, rfl⟩
abbrev main_call3_v1 : Ref sig .tc := ⟨.hbm, 176, rfl⟩
abbrev main_v125 : Ref sig .tc := ⟨.hbm, 177, rfl⟩
abbrev main_cst_30 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_31 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1_S1x1 : S1.ShapeCasts S1x1
  shapeCasts_S2_S1x2 : S2.ShapeCasts S1x2
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S64x1_S64x1_0_0 : ∀ a, (![0, 0] : Fin 2 → Nat) a + S64x1.size a ≤ S64x1.size a
  h_S64x1 : 0 < S64x1.numel
  transposes_S64x1_p1_0_S1x64 : S64x1.Transposes [1, 0] S1x64
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  dot_S10000x1_S1x64_S10000x64_1_0_0_1_n_n_wf : DotDims.WF S10000x1 S1x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x64.size a ≤ S2x64.size a
  hwx1_5 : ∀ i : grid1.Coords, EltTy.bits .f32 = 32 ∨ (Rect.block (s := S2x64) S2x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x2.size a ≤ S100000x2.size a
  hwx1_7 : ∀ i : grid1.Coords, EltTy.bits .f32 = 32 ∨ (Rect.block (s := S100000x2) S10000x2.size (cc1_transform_7 i) (hinb1_7 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_v64) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v65) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v66) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v131) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v132) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v133) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S2x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v134) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v135) S10000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000 : Shape := ⟨1, ![100000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S64x1 : Shape := ⟨2, ![64, 1]⟩
abbrev S2x64 : Shape := ⟨2, ![2, 64]⟩
abbrev S2 : Shape := ⟨1, ![2]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x1 : Shape := ⟨2, ![1, 1]⟩
abbrev S64x2 : Shape := ⟨2, ![64, 2]⟩
abbrev S100000x2 : Shape := ⟨2, ![100000, 2]⟩
abbrev S1x2 : Shape := ⟨2, ![1, 2]⟩

abbrev nBuf : Space → Nat
  | .hbm => 223
  | .vmem => 0
  | .smem => 0
  | _ => 0

abbrev hbmTy0_0 (i : Nat) : BufTy := match i % 128 with
  | 0 => ⟨S100000x64, .f32⟩
  | 1 => ⟨S100000, .f32⟩
  | 2 => ⟨S64x64, .f32⟩
  | 3 => ⟨S64, .f32⟩
  | 4 => ⟨S1x64, .f32⟩
  | 5 => ⟨S1, .f32⟩
  | 6 => ⟨S64x1, .f32⟩
  | 7 => ⟨S64, .f32⟩
  | 8 => ⟨S2x64, .f32⟩
  | 9 => ⟨S2, .f32⟩
  | 10 => ⟨S2x1600000, .i32⟩
  | 11 => ⟨S2x1600000, .i32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .i1⟩
  | 35 => ⟨S1600000x1, .i1⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S1600000x64, .i1⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S64x64, .f32⟩
  | 54 => ⟨S100000x64, .f32⟩
  | 55 => ⟨S1x64, .f32⟩
  | 56 => ⟨S100000x64, .f32⟩
  | 57 => ⟨S100000x64, .f32⟩
  | 58 => ⟨S1x1600000, .i32⟩
  | 59 => ⟨S1600000, .i32⟩
  | 60 => ⟨S1x1600000, .i32⟩
  | 61 => ⟨S1600000, .i32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000, .f32⟩
  | 80 => ⟨S1600000, .i1⟩
  | 81 => ⟨S1600000x1, .i1⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S_, .f32⟩
  | 92 => ⟨S1600000x64, .i1⟩
  | 93 => ⟨S1600000x64, .f32⟩
  | 94 => ⟨S1600000x64, .f32⟩
  | 95 => ⟨S_, .f32⟩
  | 96 => ⟨S100000x64, .f32⟩
  | 97 => ⟨S1600000x1, .i32⟩
  | 98 => ⟨S100000x64, .f32⟩
  | 99 => ⟨S64x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S1x1600000, .i32⟩
  | 112 => ⟨S1600000, .i32⟩
  | 113 => ⟨S1x1600000, .i32⟩
  | 114 => ⟨S1600000, .i32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S_, .i32⟩
  | 125 => ⟨S1600000, .i32⟩
  | 126 => ⟨S1600000, .i1⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S1600000, .i1⟩
  | 6 => ⟨S1600000x1, .i1⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .f32⟩
  | 16 => ⟨S_, .f32⟩
  | 17 => ⟨S1600000x64, .i1⟩
  | 18 => ⟨S1600000x64, .f32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S64x1, .f32⟩
  | 25 => ⟨S100000x1, .f32⟩
  | 26 => ⟨S1x1, .f32⟩
  | 27 => ⟨S100000x1, .f32⟩
  | 28 => ⟨S100000x1, .f32⟩
  | 29 => ⟨S1x1600000, .i32⟩
  | 30 => ⟨S1600000, .i32⟩
  | 31 => ⟨S1x1600000, .i32⟩
  | 32 => ⟨S1600000, .i32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .i1⟩
  | 52 => ⟨S1600000x1, .i1⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S1600000x64, .i1⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S64x1, .f32⟩
  | 71 => ⟨S100000x1, .f32⟩
  | 72 => ⟨S1x1, .f32⟩
  | 73 => ⟨S100000x1, .f32⟩
  | 74 => ⟨S100000x1, .f32⟩
  | 75 => ⟨S_, .f32⟩
  | 76 => ⟨S100000x1, .f32⟩
  | 77 => ⟨S100000x1, .f32⟩
  | 78 => ⟨S100000x1, .f32⟩
  | 79 => ⟨S_, .f32⟩
  | 80 => ⟨S100000x1, .f32⟩
  | 81 => ⟨S100000x1, .f32⟩
  | 82 => ⟨S1x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S64x2, .f32⟩
  | 91 => ⟨S100000x2, .f32⟩
  | 92 => ⟨S1x2, .f32⟩
  | 93 => ⟨S100000x2, .f32⟩
  | 94 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_call1_v0 : Ref sig .tc := ⟨.hbm, 92, rfl⟩
abbrev main_call1_v1 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_18 : Ref sig .tc := ⟨.hbm, 124, rfl⟩
abbrev main_v88 : Ref sig .tc := ⟨.hbm, 125, rfl⟩
abbrev main_v89 : Ref sig .tc := ⟨.hbm, 126, rfl⟩
abbrev main_c_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_20 : Ref sig .tc := ⟨.hbm, 135, rfl⟩
abbrev main_v97 : Ref sig .tc := ⟨.hbm, 136, rfl⟩
abbrev main_v98 : Ref sig .tc := ⟨.hbm, 137, rfl⟩
abbrev main_c_21 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_22 : Ref sig .tc := ⟨.hbm, 144, rfl⟩
abbrev main_call2_v0 : Ref sig .tc := ⟨.hbm, 145, rfl⟩
abbrev main_call2_v1 : Ref sig .tc := ⟨.hbm, 146, rfl⟩
abbrev main_v104 : Ref sig .tc := ⟨.hbm, 147, rfl⟩
abbrev main_cst_23 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_24 : Ref sig .tc := ⟨.hbm, 161, rfl⟩
abbrev main_v117 : Ref sig .tc := ⟨.hbm, 162, rfl⟩
abbrev main_v118 : Ref sig .tc := ⟨.hbm, 163, rfl⟩
abbrev main_c_25 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_c_26 : Ref sig .tc := ⟨.hbm, 170, rfl⟩
abbrev main_v124 : Ref sig .tc := ⟨.hbm, 171, rfl⟩
abbrev main_v125 : Ref sig .tc := ⟨.hbm, 172, rfl⟩
abbrev main_c_27 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_28 : Ref sig .tc := ⟨.hbm, 181, rfl⟩
abbrev main_v133 : Ref sig .tc := ⟨.hbm, 182, rfl⟩
abbrev main_v134 : Ref sig .tc := ⟨.hbm, 183, rfl⟩
abbrev main_c_29 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_30 : Ref sig .tc := ⟨.hbm, 190, rfl⟩
abbrev main_call3_v0 : Ref sig .tc := ⟨.hbm, 191, rfl⟩
abbrev main_call3_v1 : Ref sig .tc := ⟨.hbm, 192, rfl⟩
abbrev main_v140 : Ref sig .tc := ⟨.hbm, 193, rfl⟩
abbrev main_cst_31 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_32 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_33 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_call4_cst : Ref sig .tc := ⟨.hbm, 215, rfl⟩
abbrev main_call4_v0 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  transposes_S64x1_S1x64_1_0 : S64x1.Transposes [1, 0] S1x64
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  dot_S100000x1_S1x64_S100000x64_1_0_0_1_n_n_wf : DotDims.WF S100000x1 S1x64 S100000x64 [1] [0] [0] [1] [] []
  dot_S100000x64_S64x2_S100000x2_1_0_0_1_n_n_wf : DotDims.WF S100000x64 S64x2 S100000x2 [1] [0] [0] [1] [] []

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
/-
  The mathematics both programs compute, on arrays of extended reals indexed by coordinates.

  A node-feature array is a function of a row and a column.  One graph layer averages two aggregated
  arrays `A`, `B` and applies an affine map with weight ROWS `W j` and bias `b j`:
      entry (n, j) of the layer is  ∑ d, mean(A, B) n d * W j d + b j .
  One program takes the mean FIRST, as `(A + B) * (1/2)`, and applies the affine map once (`meanMul`, then `affine`);
  the other applies the affine map to `A` and to `B` separately and averages the two results as
  `((0 + P) + Q) / 2` (`meanDiv`).  On real (finite) entries the two agree because the affine map commutes with
  an average (`LayerLaw`); on the extended reals it needs every entry finite, since a product does not distribute
  over a sum at an infinity.
  The classifier head is two more affine maps with a clamp at zero in between.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The three float words the two programs use, read as extended reals: `0`, `1/2`, `2`. -/
def zeroW : EReal := Ideal.ofBits .f32 0x00000000#32
def halfW : EReal := Ideal.ofBits .f32 0x3F000000#32
def twoW : EReal := Ideal.ofBits .f32 0x40000000#32

/-- A rank-2 array read by its two coordinates. -/
def cur {a b : ℕ} (X : (⟨2, ![a, b]⟩ : Shape).Idx → EReal) : Fin a → Fin b → EReal := fun p q => X (ix2 p q)

/-- A rank-1 array read by its coordinate. -/
def cur1 {n : ℕ} (X : (⟨1, ![n]⟩ : Shape).Idx → EReal) : Fin n → EReal := fun j => X (ix1 j)

/-- The single row of a `[1, n]` array read by its column. -/
def row0 {n : ℕ} (X : (⟨2, ![1, n]⟩ : Shape).Idx → EReal) : Fin n → EReal := fun j => X (ix2 0 j)

/-- A function of two coordinates as a rank-2 array. -/
def arr {a b : ℕ} (f : Fin a → Fin b → EReal) : (⟨2, ![a, b]⟩ : Shape).Idx → EReal := fun i => f (i 0) (i 1)

theorem arr_ix2 {a b : ℕ} (f : Fin a → Fin b → EReal) (p : Fin a) (q : Fin b) : arr f (ix2 p q) = f p q := rfl

theorem cur_arr {a b : ℕ} (f : Fin a → Fin b → EReal) : cur (arr f) = f := rfl

theorem arr_cur {a b : ℕ} (X : (⟨2, ![a, b]⟩ : Shape).Idx → EReal) : arr (cur X) = X := by
  funext i
  exact congrArg X (eq_ix2 i).symm

/-- An array is determined by its entries at coordinates. -/
theorem ext_ix2 {a b : ℕ} {X Y : (⟨2, ![a, b]⟩ : Shape).Idx → EReal}
    (h : ∀ (p : Fin a) (q : Fin b), X (ix2 p q) = Y (ix2 p q)) : X = Y := by
  funext i
  rw [eq_ix2 i]
  exact h _ _

/-- Rows of `A` against rows of `W`, plus a bias per output column: `(A · Wᵀ + b) n j`. -/
def affine {N J K : ℕ} (A : Fin N → Fin K → EReal) (W : Fin J → Fin K → EReal) (b : Fin J → EReal) :
    Fin N → Fin J → EReal := fun n j => (∑ d : Fin K, A n d * W j d) + b j

/-- The mean of two arrays as a sum times one half. -/
def meanMul {N K : ℕ} (A B : Fin N → Fin K → EReal) : Fin N → Fin K → EReal := fun n d => (A n d + B n d) * halfW

/-- The mean of two arrays as `((0 + P) + Q) / 2`. -/
def meanDiv {N J : ℕ} (P Q : Fin N → Fin J → EReal) : Fin N → Fin J → EReal :=
  fun n j => Ideal.div ((zeroW + P n j) + Q n j) twoW

/-- The clamp at zero. -/
def relu0 {N J : ℕ} (P : Fin N → Fin J → EReal) : Fin N → Fin J → EReal := fun n j => max (P n j) zeroW

/-- The classifier head: an affine map, the clamp, an affine map. -/
def head {N K J C : ℕ} (H : Fin N → Fin K → EReal) (W1 : Fin J → Fin K → EReal) (b1 : Fin J → EReal)
    (W2 : Fin C → Fin J → EReal) (b2 : Fin C → EReal) : Fin N → Fin C → EReal :=
  affine (relu0 (affine H W1 b1)) W2 b2

/-- An extended real that is a real number. -/
def IsReal (x : EReal) : Prop := ∃ r : ℝ, x = (r : EReal)

/-! ## The three words as reals -/

theorem zeroW_eq : zeroW = 0 := Ideal.ofBits_zero_f32

theorem halfW_eq : halfW = ((1 / 2 : ℝ) : EReal) := by
  unfold halfW
  simp [Ideal.ofBits, Ideal.ieee, -EReal.coe_mul]
  norm_num

theorem twoW_eq : twoW = ((2 : ℝ) : EReal) := by
  unfold twoW
  simp [Ideal.ofBits, Ideal.ieee, -EReal.coe_mul]
  norm_num

/-! ## Real entries stay real -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem isReal_zero : IsReal (0 : EReal) := ⟨0, rfl⟩

theorem isReal_zeroW : IsReal zeroW := ⟨0, zeroW_eq⟩

theorem isReal_halfW : IsReal halfW := ⟨_, halfW_eq⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsReal.div_two {x : EReal} (hx : IsReal x) : IsReal (Ideal.div x twoW) := by
  rw [twoW_eq, Ideal.div_coe (by norm_num : (2 : ℝ) ≠ 0)]
  exact hx.mul ⟨_, rfl⟩

/-- A finite sum of reals, taken on the extended reals, is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

section
variable {N J K : ℕ}

theorem affine_isReal {A : Fin N → Fin K → EReal} {W : Fin J → Fin K → EReal} {b : Fin J → EReal}
    (hA : ∀ n d, IsReal (A n d)) (hW : ∀ j d, IsReal (W j d)) (hb : ∀ j, IsReal (b j)) (n : Fin N) (j : Fin J) :
    IsReal (affine A W b n j) :=
  (IsReal.sum _ _ fun d _ => (hA n d).mul (hW j d)).add (hb j)

theorem meanMul_isReal {A B : Fin N → Fin K → EReal} (hA : ∀ n d, IsReal (A n d)) (hB : ∀ n d, IsReal (B n d))
    (n : Fin N) (d : Fin K) : IsReal (meanMul A B n d) :=
  ((hA n d).add (hB n d)).mul isReal_halfW

theorem meanDiv_isReal {P Q : Fin N → Fin J → EReal} (hP : ∀ n j, IsReal (P n j)) (hQ : ∀ n j, IsReal (Q n j))
    (n : Fin N) (j : Fin J) : IsReal (meanDiv P Q n j) :=
  ((isReal_zeroW.add (hP n j)).add (hQ n j)).div_two

/-- THE LAYER LAW: on real entries the affine map of the mean is the mean of the two affine maps,
    `∑ d, ((A + B)/2) n d · W j d + b j = ((0 + (∑ d, A n d · W j d + b j)) + (∑ d, B n d · W j d + b j)) / 2`. -/
theorem layer_law {A B : Fin N → Fin K → EReal} {W : Fin J → Fin K → EReal} {b : Fin J → EReal}
    (hA : ∀ n d, IsReal (A n d)) (hB : ∀ n d, IsReal (B n d)) (hW : ∀ j d, IsReal (W j d)) (hb : ∀ j, IsReal (b j)) :
    affine (meanMul A B) W b = meanDiv (affine A W b) (affine B W b) := by
  choose a ha using hA
  choose b' hb' using hB
  choose w hw using hW
  choose c hc using hb
  funext n j
  simp only [affine, meanMul, meanDiv, ha, hb', hw, hc, halfW_eq, twoW_eq, zeroW_eq, zero_add]
  rw [Ideal.div_coe (by norm_num : (2 : ℝ) ≠ 0)]
  simp only [← EReal.coe_add, ← EReal.coe_mul, sum_coe]
  refine congrArg _ ?_
  have e : ∀ d, (a n d + b' n d) * (1 / 2) * w j d = 1 / 2 * (a n d * w j d) + 1 / 2 * (b' n d * w j d) := fun d => by ring
  rw [Finset.sum_congr rfl fun d _ => e d, Finset.sum_add_distrib, ← Finset.mul_sum, ← Finset.mul_sum]
  ring

end

end Cert.Spec

end
-- ==== Proof.RefSide.lean ====
/-
  The reference program read stage by stage as the mathematics of `Cert.Spec`.

  Each graph layer of the reference takes the masked segment sum `S` of the current node features over each of the two
  edge lists, applies the affine map `S · Wᵀ + b` to each, and averages the two results as `((0 + P) + Q) / 2`; the
  classifier head is an affine map, the clamp at zero, and an affine map. Read at an entry `(p, q)`: a contraction
  `S · Wᵀ` is `∑ k, S (p, k) * W (q, k)` (the transposed weight at `(k, q)` is the weight at `(q, k)`), a bias broadcast
  along the rows contributes `b q`, and the remaining operations act entry by entry. The segment sum itself stays an
  opaque function `seg` of (features, time stamps, edge list): its four occurrences are the same function of their
  operands, and that is all that is used of it.
-/
import proofs.«122463_j55920474194543_1_alg».proof.Proof.Gen.ReferenceIdeal.Read
import proofs.«122463_j55920474194543_1_alg».proof.Proof.Spec
import Idealize.ShloMosaic.Lib.ValueIdx
import Idealize.ShloMosaic.PureOps.Ideal

noncomputable section

namespace Cert.RefSide

open Idealize.ShloMosaic Idealize.ShloMosaic.TcCoe Idealize.SL.Sem Idealize.ShloMosaic.ValueIdx Cert.Spec
open Cert.ReferenceIdeal Cert.ReferenceIdeal.Read
open scoped BigOperators

/-- Node features: 100000 rows of 64 columns. -/
abbrev SN64 : Shape := ⟨2, ![100000, 64]⟩
/-- One time stamp per node. -/
abbrev SN : Shape := ⟨1, ![100000]⟩
/-- An edge list: a row of sources and a row of destinations, 1600000 edges. -/
abbrev SE2 : Shape := ⟨2, ![2, 1600000]⟩

/-- The masked segment sum of the rows of `x` over the edge list `ei`: a row is gathered by an edge's source, kept iff the
    source's time stamp is at most the destination's, and added onto the destination's row. It is kept as one opaque
    function of (features, time stamps, edge list): nothing below looks inside it. -/
abbrev seg (x : SN64.Idx → EReal) (ts : SN.Idx → EReal) (ei : SE2.Idx → BitVec 32) : SN64.Idx → EReal :=
  val_main_v30 (F := Ideal) x ts ei

variable (x0 : SN64.Idx → EReal) (x1 : SN.Idx → EReal) (x2 : (⟨2, ![64, 64]⟩ : Shape).Idx → EReal) (x3 : (⟨1, ![64]⟩ : Shape).Idx → EReal)
  (x4 : (⟨2, ![1, 64]⟩ : Shape).Idx → EReal) (x5 : (⟨1, ![1]⟩ : Shape).Idx → EReal) (x6 : (⟨2, ![64, 1]⟩ : Shape).Idx → EReal)
  (x7 : (⟨1, ![64]⟩ : Shape).Idx → EReal) (x8 : (⟨2, ![2, 64]⟩ : Shape).Idx → EReal) (x9 : (⟨1, ![2]⟩ : Shape).Idx → EReal)
  (x10 x11 : SE2.Idx → BitVec 32)

/-! ## The four segment sums are one function

The program writes the masked segment sum four times (two edge lists, two layers). Each copy is the same chain of
operations on its own operands, so each is `seg` of its operands, by unfolding both chains. -/

/-- Layer 0, second edge list. -/
theorem seg_v66 : val_main_v66 (F := Ideal) x0 x1 x11 = seg x0 x1 x11 := rfl

/-- Layer 1, first edge list: the features are layer 0's result. -/
theorem seg_v107 :
    val_main_v107 (F := Ideal) x0 x1 x2 x3 x10 x11 = seg (val_main_v76 (F := Ideal) x0 x1 x2 x3 x10 x11) x1 x10 := rfl

/-- Layer 1, second edge list. -/
theorem seg_v143 :
    val_main_v143 (F := Ideal) x0 x1 x2 x3 x10 x11 = seg (val_main_v76 (F := Ideal) x0 x1 x2 x3 x10 x11) x1 x11 := rfl

/-! ## Layer 0

Entry `(p, q)` of `S · Wᵀ + b`: the contraction pairs column `k` of row `p` of `S` with entry `(k, q)` of the transposed
weight, that is entry `(q, k)` of `W`; the bias is broadcast along the rows, so its entry is `b q`. -/

/-- The affine map of the first edge list's segment sum. -/
theorem v35_entry (p : Fin 100000) (q : Fin 64) :
    val_main_v35 (F := Ideal) x0 x1 x2 x3 x10 (ix2 p q)
      = affine (cur (seg x0 x1 x10)) (cur x2) (cur1 x3) p q := by
  rw [val_main_v35_apply, val_main_v32_apply, val_main_v34_apply, val_main_v33_apply]
  change (∑ k : Fin 64, _) + _ = (∑ d : Fin 64, _) + _
  refine congrArg₂ (fun a b : EReal => a + b) ?_ ?_
  · refine Finset.sum_congr rfl fun k _ => ?_
    rw [val_main_v31_apply]
    have e1 : lidx_main_v32 (ix2 p q) k = ix2 p k :=
      funext fun a => Fin.ext (by match a with | ⟨0, _⟩ => rfl | ⟨1, _⟩ => rfl)
    have e2 : idx_main_v31 (ridx_main_v32 (ix2 p q) k) = ix2 q k :=
      funext fun a => Fin.ext (by match a with | ⟨0, _⟩ => rfl | ⟨1, _⟩ => rfl)
    rw [e1, e2]
    rfl
  · have e3 : idx_main_v33 (idx_main_v34 (ix2 p q)) = ix1 q :=
      funext fun a => Fin.ext (by match a with | ⟨0, _⟩ => rfl)
    rw [e3]
    rfl

/-- The affine map of the second edge list's segment sum. -/
theorem v71_entry (p : Fin 100000) (q : Fin 64) :
    val_main_v71 (F := Ideal) x0 x1 x2 x3 x11 (ix2 p q)
      = affine (cur (seg x0 x1 x11)) (cur x2) (cur1 x3) p q := by
  rw [val_main_v71_apply, val_main_v68_apply, val_main_v70_apply, val_main_v69_apply, seg_v66]
  change (∑ k : Fin 64, _) + _ = (∑ d : Fin 64, _) + _
  refine congrArg₂ (fun a b : EReal => a + b) ?_ ?_
  · refine Finset.sum_congr rfl fun k _ => ?_
    rw [val_main_v67_apply]
    have e1 : lidx_main_v68 (ix2 p q) k = ix2 p k :=
      funext fun a => Fin.ext (by match a with | ⟨0, _⟩ => rfl | ⟨1, _⟩ => rfl)
    have e2 : idx_main_v67 (ridx_main_v68 (ix2 p q) k) = ix2 q k :=
      funext fun a => Fin.ext (by match a with | ⟨0, _⟩ => rfl | ⟨1, _⟩ => rfl)
    rw [e1, e2]
    rfl
  · have e3 : idx_main_v69 (idx_main_v70 (ix2 p q)) = ix1 q :=
      funext fun a => Fin.ext (by match a with | ⟨0, _⟩ => rfl)
    rw [e3]
    rfl

/-- LAYER 0 of the reference: the two affine maps, averaged as `((0 + P) + Q) / 2`. -/
theorem ref_layer0 :
    val_main_v76 (F := Ideal) x0 x1 x2 x3 x10 x11
      = arr (meanDiv (affine (cur (seg x0 x1 x10)) (cur x2) (cur1 x3))
                     (affine (cur (seg x0 x1 x11)) (cur x2) (cur1 x3))) := by
  refine ext_ix2 fun p q => ?_
  rw [val_main_v76_apply, val_main_v74_apply, val_main_v73_apply, val_main_v72_apply, val_main_cst_14_apply,
    val_main_v75_apply, val_main_cst_15_apply, v35_entry, v71_entry]
  rfl

/-! ## Layer 1

The same with layer 0's result as the features, a weight of ONE row of 64 and a bias of one entry: the result has one
column, and the bias is broadcast along both axes. -/

/-- The affine map of the first edge list's segment sum of layer 0's result. -/
theorem v112_entry (p : Fin 100000) (q : Fin 1) :
    val_main_v112 (F := Ideal) x0 x1 x2 x3 x4 x5 x10 x11 (ix2 p q)
      = affine (cur (seg (val_main_v76 (F := Ideal) x0 x1 x2 x3 x10 x11) x1 x10)) (cur x4) (cur1 x5) p q := by
  rw [val_main_v112_apply, val_main_v109_apply, val_main_v111_apply, val_main_v110_apply, seg_v107]
  change (∑ k : Fin 64, _) + _ = (∑ d : Fin 64, _) + _
  refine congrArg₂ (fun a b : EReal => a + b) ?_ ?_
  · refine Finset.sum_congr rfl fun k _ => ?_
    rw [val_main_v108_apply]
    have e1 : lidx_main_v109 (ix2 p q) k = ix2 p k :=
      funext fun a => Fin.ext (by match a with | ⟨0, _⟩ => rfl | ⟨1, _⟩ => rfl)
    have e2 : idx_main_v108 (ridx_main_v109 (ix2 p q) k) = ix2 q k :=
      funext fun a => Fin.ext (by match a with | ⟨0, _⟩ => rfl | ⟨1, _⟩ => rfl)
    rw [e1, e2]
    rfl
  · have e3 : idx_main_v110 (idx_main_v111 (ix2 p q)) = ix1 q :=
      funext fun a => Fin.ext (by match a with | ⟨0, _⟩ => (have := q.isLt; show 0 = q.val; omega))
    rw [e3]
    rfl

/-- The affine map of the second edge list's segment sum of layer 0's result. -/
theorem v148_entry (p : Fin 100000) (q : Fin 1) :
    val_main_v148 (F := Ideal) x0 x1 x2 x3 x4 x5 x10 x11 (ix2 p q)
      = affine (cur (seg (val_main_v76 (F := Ideal) x0 x1 x2 x3 x10 x11) x1 x11)) (cur x4) (cur1 x5) p q := by
  rw [val_main_v148_apply, val_main_v145_apply, val_main_v147_apply, val_main_v146_apply, seg_v143]
  change (∑ k : Fin 64, _) + _ = (∑ d : Fin 64, _) + _
  refine congrArg₂ (fun a b : EReal => a + b) ?_ ?_
  · refine Finset.sum_congr rfl fun k _ => ?_
    rw [val_main_v144_apply]
    have e1 : lidx_main_v145 (ix2 p q) k = ix2 p k :=
      funext fun a => Fin.ext (by match a with | ⟨0, _⟩ => rfl | ⟨1, _⟩ => rfl)
    have e2 : idx_main_v144 (ridx_main_v145 (ix2 p q) k) = ix2 q k :=
      funext fun a => Fin.ext (by match a with | ⟨0, _⟩ => rfl | ⟨1, _⟩ => rfl)
    rw [e1, e2]
    rfl
  · have e3 : idx_main_v146 (idx_main_v147 (ix2 p q)) = ix1 q :=
      funext fun a => Fin.ext (by match a with | ⟨0, _⟩ => (have := q.isLt; show 0 = q.val; omega))
    rw [e3]
    rfl

/-- LAYER 1 of the reference. -/
theorem ref_layer1 :
    val_main_v153 (F := Ideal) x0 x1 x2 x3 x4 x5 x10 x11
      = arr (meanDiv (affine (cur (seg (val_main_v76 (F := Ideal) x0 x1 x2 x3 x10 x11) x1 x10)) (cur x4) (cur1 x5))
                     (affine (cur (seg (val_main_v76 (F := Ideal) x0 x1 x2 x3 x10 x11) x1 x11)) (cur x4) (cur1 x5))) := by
  refine ext_ix2 fun p q => ?_
  rw [val_main_v153_apply, val_main_v151_apply, val_main_v150_apply, val_main_v149_apply, val_main_cst_32_apply,
    val_main_v152_apply, val_main_cst_33_apply, v112_entry, v148_entry]
  rfl

/-! ## The classifier head

An affine map from the one column of layer 1 to 64 columns (the contraction has a single term), the clamp at zero,
and an affine map to the two output columns. -/

/-- The first affine map of the head. -/
theorem v158_entry (p : Fin 100000) (j : Fin 64) :
    val_main_v158 (F := Ideal) x0 x1 x2 x3 x4 x5 x6 x7 x10 x11 (ix2 p j)
      = affine (cur (val_main_v153 (F := Ideal) x0 x1 x2 x3 x4 x5 x10 x11)) (cur x6) (cur1 x7) p j := by
  rw [val_main_v158_apply, val_main_v155_apply, val_main_v157_apply, val_main_v156_apply]
  change (∑ k : Fin 1, _) + _ = (∑ d : Fin 1, _) + _
  refine congrArg₂ (fun a b : EReal => a + b) ?_ ?_
  · refine Finset.sum_congr rfl fun k _ => ?_
    rw [val_main_v154_apply]
    have e1 : lidx_main_v155 (ix2 p j) k = ix2 p k :=
      funext fun a => Fin.ext (by match a with | ⟨0, _⟩ => rfl | ⟨1, _⟩ => rfl)
    have e2 : idx_main_v154 (ridx_main_v155 (ix2 p j) k) = ix2 j k :=
      funext fun a => Fin.ext (by match a with | ⟨0, _⟩ => rfl | ⟨1, _⟩ => rfl)
    rw [e1, e2]
    rfl
  · have e3 : idx_main_v156 (idx_main_v157 (ix2 p j)) = ix1 j :=
      funext fun a => Fin.ext (by match a with | ⟨0, _⟩ => rfl)
    rw [e3]
    rfl

/-- The clamp at zero of the first affine map. -/
theorem v159_entry (p : Fin 100000) (j : Fin 64) :
    val_main_v159 (F := Ideal) x0 x1 x2 x3 x4 x5 x6 x7 x10 x11 (ix2 p j)
      = relu0 (affine (cur (val_main_v153 (F := Ideal) x0 x1 x2 x3 x4 x5 x10 x11)) (cur x6) (cur1 x7)) p j := by
  rw [val_main_v159_apply, val_main_call4_v0_apply, val_main_call4_cst_apply, v158_entry]
  rfl

/-- THE OUTPUT of the reference: the head applied to layer 1's result. -/
theorem ref_out :
    val_main_v164 (F := Ideal) x0 x1 x2 x3 x4 x5 x6 x7 x8 x9 x10 x11
      = arr (head (cur (val_main_v153 (F := Ideal) x0 x1 x2 x3 x4 x5 x10 x11)) (cur x6) (cur1 x7) (cur x8) (cur1 x9)) := by
  refine ext_ix2 fun p c => ?_
  rw [val_main_v164_apply, val_main_v161_apply, val_main_v163_apply, val_main_v162_apply]
  change (∑ k : Fin 64, _) + _ = (∑ d : Fin 64, _) + _
  refine congrArg₂ (fun a b : EReal => a + b) ?_ ?_
  · refine Finset.sum_congr rfl fun k _ => ?_
    rw [val_main_v160_apply]
    have e1 : lidx_main_v161 (ix2 p c) k = ix2 p k :=
      funext fun a => Fin.ext (by match a with | ⟨0, _⟩ => rfl | ⟨1, _⟩ => rfl)
    have e2 : idx_main_v160 (ridx_main_v161 (ix2 p c) k) = ix2 c k :=
      funext fun a => Fin.ext (by match a with | ⟨0, _⟩ => rfl | ⟨1, _⟩ => rfl)
    rw [e1, e2, v159_entry]
    rfl
  · have e3 : idx_main_v162 (idx_main_v163 (ix2 p c)) = ix1 c :=
      funext fun a => Fin.ext (by match a with | ⟨0, _⟩ => rfl)
    rw [e3]
    rfl

end Cert.RefSide

end
-- ==== Proof.LibRowScatterAdd.lean ====
/-
  A ROW SCATTER-ADD read at an index.

  Adding rows `upd : [P, C]` into a table `x : [N, C]` at a column of integers `idx : [P, 1]` (one start index per
  update row) is StableHLO's scatter with an `add` body, update window axis 1, inserted window axis 0,
  scatter-dims-to-operand-dims map [0] and the index vector on axis 1. Update entry `(e, q')` lands on the table's
  entry `(t, q')`, where `t` is the start index `idx[e, 0]` read as a SIGNED integer and NOT clamped: when `t` is not
  in `[0, N)` the whole update row is dropped. Hence the result at `(n, q)` is the table's entry plus the sum, over the
  update rows `e` whose start index is exactly `n`, of `upd[e, q]`. The set of those rows depends on the indices and on
  `n` only — not on the column `q`, and not on the width `C`.
-/
import Idealize.ShloMosaic.PureOps.Ideal
import Idealize.ShloMosaic.Lib.ValueIdx

noncomputable section

namespace Cert.RowScatter

open Idealize.ShloMosaic Idealize.ShloMosaic.ValueIdx

/-- The update rows that land on row `n` of an `N`-row table: those whose start index, the 32-bit word read SIGNED
    and not clamped, is `n`. It does not depend on the table's width. -/
def landing (N : Nat) {P : Nat} (idx : (⟨2, ![P, 1]⟩ : Shape).Idx → BitVec 32) (n : Fin N) : Finset (Fin P) :=
  Finset.univ.filter fun e => (idx (ix2 e 0)).toInt = (n : ℤ)

/-- Membership in `landing`: the start index of update row `e`, read signed, is `n`. -/
theorem mem_landing {N P : Nat} (idx : (⟨2, ![P, 1]⟩ : Shape).Idx → BitVec 32) (n : Fin N) (e : Fin P) :
    e ∈ landing N idx n ↔ (idx (ix2 e 0)).toInt = (n : ℤ) := by
  simp [landing]

/-- The dimension numbers of a row scatter of `[P, C]` updates into an `[N, C]` table by `[P, 1]` start indices; their
    conditions `wf` are decided on a program's literal shapes. -/
abbrev rowDims (N P C : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section
variable {N P C : Nat} (wf : ScatterDims.WF ⟨2, ![N, C]⟩ ⟨2, ![P, 1]⟩ ⟨2, ![P, C]⟩ [1] [0] [0] 1)

/-- On the row axis the window of update entry `(e, q')` starts at the start index `idx[e, 0]`, read signed. -/
theorem start_row (idx : IVec ⟨2, ![P, 1]⟩ 32) (e : Fin P) (q' : Fin C) :
    (rowDims N P C wf).start (ix2 e q') idx 0 = (idx (ix2 e 0)).toInt := by
  unfold ScatterDims.start
  rw [dif_pos (show (0 : Fin 2) ∈ (rowDims N P C wf).scatterDimsToOperandDims from List.mem_singleton.mpr rfl)]
  have hsi : (rowDims N P C wf).siIdx (ix2 e q')
      ⟨List.idxOf (0 : Fin 2) (rowDims N P C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the start-index map does not name, the window starts at zero. -/
theorem start_col (idx : IVec ⟨2, ![P, 1]⟩ 32) (e : Fin P) (q' : Fin C) :
    (rowDims N P C wf).start (ix2 e q') idx 1 = 0 := by
  unfold ScatterDims.start
  have h10 : ¬ (1 : Fin 2) ∈ [(0 : Fin 2)] := fun h =>
    absurd (congrArg Fin.val (List.mem_singleton.mp h)) Nat.one_ne_zero
  rw [dif_neg (show ¬ (1 : Fin 2) ∈ (rowDims N P C wf).scatterDimsToOperandDims from h10)]

/-- The row axis is an inserted window axis: the window coordinate on it is zero. -/
theorem window_row (e : Fin P) (q' : Fin C) : (rowDims N P C wf).window (ix2 e q') 0 = 0 := by
  unfold ScatterDims.window
  have h0 : ¬ (0 : Fin 2) ∈ (rowDims N P C wf).sKept := by
    intro h
    have := (List.mem_filter.mp h).2
    simp at this
  rw [dif_neg h0]

/-- On the column axis the window coordinate of update entry `(e, q')` is its column `q'`. -/
theorem window_col (e : Fin P) (q' : Fin C) : (rowDims N P C wf).window (ix2 e q') 1 = q'.val := by
  unfold ScatterDims.window
  have h1 : (1 : Fin 2) ∈ (rowDims N P C wf).sKept := by
    refine List.mem_filter.mpr ⟨List.mem_finRange _, ?_⟩
    simp
  rw [dif_pos h1]
  rfl

/-- WHERE AN UPDATE ENTRY LANDS: update entry `(e, q')` lands on table entry `(n, q)` exactly when the start index of
    row `e`, read signed, is `n`, and the columns agree. -/
theorem resultIdx?_eq_some_iff (idx : IVec ⟨2, ![P, 1]⟩ 32) (e : Fin P) (q' : Fin C) (n : Fin N) (q : Fin C) :
    (rowDims N P C wf).resultIdx? (ix2 e q') idx = some (ix2 n q) ↔ (idx (ix2 e 0)).toInt = (n : ℤ) ∧ q' = q := by
  have hs0 := start_row wf idx e q'
  have hs1 := start_col wf idx e q'
  have hw0 := window_row wf e q'
  have hw1 := window_col wf e q'
  unfold ScatterDims.resultIdx?
  constructor
  · intro h
    split at h
    · rename_i hall
      have hfun := Option.some.inj h
      have e0 := congrArg Fin.val (congrFun hfun 0)
      have e1 := congrArg Fin.val (congrFun hfun 1)
      have a0 := hall 0
      simp only [hs0, hw0] at e0 a0
      simp only [hs1, hw1] at e1
      refine ⟨?_, Fin.ext ?_⟩
      · have : ((ix2 n q : (⟨2, ![N, C]⟩ : Shape).Idx) 0).val = n.val := rfl
        rw [this] at e0
        omega
      · have : ((ix2 n q : (⟨2, ![N, C]⟩ : Shape).Idx) 1).val = q.val := rfl
        rw [this] at e1
        omega
    · cases h
  · rintro ⟨ht, rfl⟩
    have hall : ∀ a : Fin 2, 0 ≤ (rowDims N P C wf).start (ix2 e q') idx a + ((rowDims N P C wf).window (ix2 e q') a : ℤ) ∧
        (rowDims N P C wf).start (ix2 e q') idx a + ((rowDims N P C wf).window (ix2 e q') a : ℤ)
          < ((⟨2, ![N, C]⟩ : Shape).size a : ℤ) := by
      intro a
      match a with
      | ⟨0, _⟩ =>
        show 0 ≤ (rowDims N P C wf).start (ix2 e q') idx 0 + ((rowDims N P C wf).window (ix2 e q') 0 : ℤ) ∧
          (rowDims N P C wf).start (ix2 e q') idx 0 + ((rowDims N P C wf).window (ix2 e q') 0 : ℤ) < (N : ℤ)
        rw [hs0, hw0, ht]
        have := n.isLt
        omega
      | ⟨1, _⟩ =>
        show 0 ≤ (rowDims N P C wf).start (ix2 e q') idx 1 + ((rowDims N P C wf).window (ix2 e q') 1 : ℤ) ∧
          (rowDims N P C wf).start (ix2 e q') idx 1 + ((rowDims N P C wf).window (ix2 e q') 1 : ℤ) < (C : ℤ)
        rw [hs1, hw1]
        have := q'.isLt
        omega
    rw [dif_pos hall]
    congr 1
    funext a
    refine Fin.ext ?_
    match a with
    | ⟨0, _⟩ =>
      show ((rowDims N P C wf).start (ix2 e q') idx 0 + ((rowDims N P C wf).window (ix2 e q') 0 : ℤ)).toNat = n.val
      rw [hs0, hw0, ht]
      omega
    | ⟨1, _⟩ =>
      show ((rowDims N P C wf).start (ix2 e q') idx 1 + ((rowDims N P C wf).window (ix2 e q') 1 : ℤ)).toNat = q'.val
      rw [hs1, hw1]
      omega

/-- THE ROW SCATTER-ADD READ AT `(n, q)`: the table's entry plus column `q` of every update row that lands on row
    `n`. -/
theorem scatterAdd_rows_apply (x : (⟨2, ![N, C]⟩ : Shape).Idx → EReal) (idx : IVec ⟨2, ![P, 1]⟩ 32)
    (upd : (⟨2, ![P, C]⟩ : Shape).Idx → EReal) (n : Fin N) (q : Fin C) :
    Ideal.hostScatterAdd (rowDims N P C wf) x idx upd (ix2 n q)
      = x (ix2 n q) + ∑ e ∈ landing N idx n, upd (ix2 e q) := by
  unfold Ideal.hostScatterAdd
  congr 1
  refine Finset.sum_nbij' (fun j => j 0) (fun e => ix2 e q) ?_ ?_ ?_ ?_ ?_
  · intro j hj
    rw [Finset.mem_filter] at hj
    have h := hj.2
    rw [eq_ix2 j] at h
    exact (mem_landing idx n (j 0)).mpr ((resultIdx?_eq_some_iff wf idx (j 0) (j 1) n q).mp h).1
  · intro e he
    rw [Finset.mem_filter]
    exact ⟨Finset.mem_univ _, (resultIdx?_eq_some_iff wf idx e q n q).mpr ⟨(mem_landing idx n e).mp he, rfl⟩⟩
  · intro j hj
    rw [Finset.mem_filter] at hj
    have h := hj.2
    rw [eq_ix2 j] at h
    have hq := ((resultIdx?_eq_some_iff wf idx (j 0) (j 1) n q).mp h).2
    rw [← hq]
    exact (eq_ix2 j).symm
  · intro e _
    rfl
  · intro j hj
    rw [Finset.mem_filter] at hj
    have h := hj.2
    rw [eq_ix2 j] at h
    have hq := ((resultIdx?_eq_some_iff wf idx (j 0) (j 1) n q).mp h).2
    rw [← hq]
    exact congrArg upd (eq_ix2 j)

/-- The program's form of the same reading: `Host.scatterAdd` at the extended reals is the exact accumulating
    scatter, so it reads at `(n, q)` as the table's entry plus column `q` of every update row landing on row `n`. -/
theorem host_scatterAdd_rows_apply {φ : FTy} (x : FVec Ideal ⟨2, ![N, C]⟩ φ) (idx : IVec ⟨2, ![P, 1]⟩ 32)
    (upd : FVec Ideal ⟨2, ![P, C]⟩ φ) (n : Fin N) (q : Fin C) :
    Host.scatterAdd (F := Ideal) (rowDims N P C wf) x idx upd (ix2 n q)
      = x (ix2 n q) + ∑ e ∈ landing N idx n, upd (ix2 e q) :=
  scatterAdd_rows_apply wf x idx upd n q

end

end Cert.RowScatter

end
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.Finite.lean ====
/-
  FINITENESS.

  Both programs are compared on the extended reals, where a product does not distribute over a sum at an infinity;
  the layer law therefore needs every array it touches to hold real numbers only.  This module supplies the two facts
  that make it so.

  (i)  A masked segment sum of a real array is real.  Entry `(n, q)` of the segment sum is the zero word plus the sum,
       over the edges whose destination is row `n`, of column `q` of the masked gathered rows; each such term is either
       an entry of the array (at whatever row the edge's source selects) or the zero word; and a finite sum of reals
       is real.

  (ii) The precondition makes every float argument real.  The precondition is the conjunction of ten words
       `all (|x| < +∞)`, one per float argument, where `|x|` is `max x (-x)`.  A conjunction of bits that is one has every
       bit one; an `all` that is one has every compared entry one; and an extended real `x` with `max x (-x) < ⊤` is
       neither `⊤` nor `⊥`, so it is a real number.
-/
import proofs.«122463_j55920474194543_1_alg».proof.Defs
import proofs.«122463_j55920474194543_1_alg».proof.Proof.Gen.KernelIdeal
import proofs.«122463_j55920474194543_1_alg».proof.Proof.Gen.Pre_finite_inputs
import proofs.«122463_j55920474194543_1_alg».proof.Proof.Gen.ReferenceIdeal.Read
import proofs.«122463_j55920474194543_1_alg».proof.Proof.Spec
import proofs.«122463_j55920474194543_1_alg».proof.Proof.LibRowScatterAdd
import proofs.«122463_j55920474194543_1_alg».proof.Proof.LibRowGather
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.TcCoe Idealize.SL.Sem Idealize.ShloMosaic.ValueIdx Cert.Spec
open scoped BigOperators

/-! ## (i) A masked segment sum of a real array is real -/

/-- The shapes of the node features, the time stamps and an edge list. -/
abbrev SN64 : Shape := ⟨2, ![100000, 64]⟩
abbrev SN : Shape := ⟨1, ![100000]⟩
abbrev SE2 : Shape := ⟨2, ![2, 1600000]⟩

/-- One masked segment sum, as a function of the features, the time stamps and the edge list: gather the rows of the
    features at the edges' sources, keep an edge when its source's time stamp is at most its destination's (else the
    zero word), and add the kept rows onto the edges' destinations, starting from the zero array. -/
abbrev seg (x : SN64.Idx → EReal) (ts : SN.Idx → EReal) (ei : SE2.Idx → BitVec 32) : SN64.Idx → EReal :=
  Cert.ReferenceIdeal.Read.val_main_v30 (F := Ideal) x ts ei

section Seg
open Cert.ReferenceIdeal Cert.ReferenceIdeal.Read

/-- A masked gathered entry is real when the array is: it is the gathered entry, which is an entry of the array at the
    row the edge's source selects, when the mask bit is one, and the zero word otherwise. -/
theorem masked_isReal (x : SN64.Idx → EReal) (ts : SN.Idx → EReal) (ei : SE2.Idx → BitVec 32)
    (hx : ∀ i, IsReal (x i)) (e : Fin 1600000) (q : Fin 64) :
    IsReal (val_main_v27 (F := Ideal) x ts ei (ix2 e q)) := by
  rw [val_main_v27_apply]
  by_cases hm : val_main_call0_v0 (F := Ideal) ts ei (ix2 e q) = 1#1
  · rw [hm, select_one]
    show IsReal (Host.gather (Cert.RowGather.rowDims 100000 1600000 64 _) x _ (ix2 e q))
    rw [Cert.RowGather.gather_rows_apply (by decide : 0 < 100000)]
    exact hx _
  · rw [eq_zero_of_ne_one hm, select_zero]
    exact isReal_zeroW

/-- Every entry of a masked segment sum of a real array is real: the zero word plus a finite sum of real terms. -/
theorem seg_isReal (x : SN64.Idx → EReal) (ts : SN.Idx → EReal) (ei : SE2.Idx → BitVec 32)
    (hx : ∀ i, IsReal (x i)) : ∀ i, IsReal (seg x ts ei i) := by
  intro i
  obtain ⟨n, q, rfl⟩ : ∃ (n : Fin 100000) (q : Fin 64), i = ix2 n q := ⟨i 0, i 1, eq_ix2 i⟩
  show IsReal (Host.scatterAdd (F := Ideal) (Cert.RowScatter.rowDims 100000 1600000 64 _) _ _ _ (ix2 n q))
  rw [Cert.RowScatter.host_scatterAdd_rows_apply]
  exact IsReal.add isReal_zeroW (IsReal.sum _ _ fun e _ => masked_isReal x ts ei hx e q)

end Seg

/-! ## (ii) The precondition makes every float argument real -/

/-- An array with no axes has one index. -/
instance : Subsingleton (⟨0, ![]⟩ : Shape).Idx := ⟨fun a b => funext fun d => d.elim0⟩

/-- The word `0x7F800000` is `+∞`. -/
theorem infW_eq : Ideal.ofBits .f32 0x7F800000#32 = (⊤ : EReal) := by simp [Ideal.ofBits, Ideal.ieee]

/-- An extended real whose absolute value `max x (-x)` is below `+∞` is a real number: it is neither `⊤` (then
    `max x (-x) = ⊤`) nor `⊥` (then `-x = ⊤`). -/
theorem isReal_of_abs_lt (x : EReal)
    (h : FloatOps.cmpf (F := Ideal) (φ := .f32) .olt (FloatOps.hostAbsf (F := Ideal) (φ := .f32) x)
      (Ideal.ofBits .f32 0x7F800000#32) = 1#1) : IsReal x := by
  have h' : Ideal.cmp .olt (max x (-x)) (Ideal.ofBits .f32 0x7F800000#32) = 1#1 := h
  rw [infW_eq] at h'
  unfold Ideal.cmp at h'
  have hlt : max x (-x) < ⊤ := by
    by_contra hn
    simp [hn] at h'
  rw [max_lt_iff] at hlt
  induction x using EReal.rec with
  | bot => simp at hlt
  | coe r => exact ⟨r, rfl⟩
  | top => simp at hlt

/-- `all (|x| < +∞)` over an array of any shape: when the word is one, every entry of the array is real. -/
theorem isReal_of_all {s : Shape} {axes : List (Fin s.rank)} (x : FVec Ideal s .f32)
    (b : (⟨0, ![]⟩ : Shape).BroadcastsInDim s (![] : Fin 0 → Fin s.rank)) (h : s.ReducesTo axes ⟨0, ![]⟩)
    (hu : 0 < (⟨0, ![]⟩ : Shape).numel)
    (e : Host.reduce IntOp.andi
          (cmpf .olt (Host.absf x) (broadcastInDim s ![] b (constant (F := Ideal) ⟨0, ![]⟩ .f32 0x7F800000#32)))
          (constantI ⟨0, ![]⟩ 1 1#1) h hu ix0 = 1#1) (i : s.Idx) : IsReal (x i) :=
  isReal_of_abs_lt (x i) (Host.reduce_andi_all _ _ h hu ix0 e i)

section Pre
open Cert.Pre_finite_inputs

/-- The precondition's predicate is the conjunction of ten `all (|x| < +∞)`, one per float argument: when its word is
    one, every entry of every float argument is real. -/
theorem fn_real (a0 : FVec Ideal S100000x64 .f32) (a1 : FVec Ideal S100000 .f32) (a2 : FVec Ideal S64x64 .f32)
    (a3 : FVec Ideal S64 .f32) (a4 : FVec Ideal S1x64 .f32) (a5 : FVec Ideal S1 .f32) (a6 : FVec Ideal S64x1 .f32)
    (a7 : FVec Ideal S64 .f32) (a8 : FVec Ideal S2x64 .f32) (a9 : FVec Ideal S2 .f32) (a10 a11 : IVec S2x1600000 32)
    (h : fn (F := Ideal) a0 a1 a2 a3 a4 a5 a6 a7 a8 a9 a10 a11 ix0 = 1#1) :
    (∀ i, IsReal (a0 i)) ∧ (∀ i, IsReal (a1 i)) ∧ (∀ i, IsReal (a2 i)) ∧ (∀ i, IsReal (a3 i)) ∧ (∀ i, IsReal (a4 i))
    ∧ (∀ i, IsReal (a5 i)) ∧ (∀ i, IsReal (a6 i)) ∧ (∀ i, IsReal (a7 i)) ∧ (∀ i, IsReal (a8 i)) ∧ (∀ i, IsReal (a9 i)) := by
  dsimp only [fn, fn_part1, fn_part2, andi] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨isReal_of_all a0 _ _ _ h0, isReal_of_all a1 _ _ _ h1, isReal_of_all a2 _ _ _ h2, isReal_of_all a3 _ _ _ h3,
    isReal_of_all a4 _ _ _ h4, isReal_of_all a5 _ _ _ h5, isReal_of_all a6 _ _ _ h6, isReal_of_all a7 _ _ _ h7,
    isReal_of_all a8 _ _ _ h8, isReal_of_all a9 _ _ _ h9⟩

end Pre

section PreK
open Cert.KernelIdeal

/-- Under the precondition, on every device, each of the ten float arguments holds real numbers only. -/
theorem pre_real (m : (ℓ : Loc nD τ sig) → Buf (Elt Ideal) ℓ) (hpre : Cert.Pre_KernelIdeal m) (c : Dev nD) :
    (∀ i, IsReal (m ((c.tc : Thread nD τ).loc main_arg0) i)) ∧ (∀ i, IsReal (m ((c.tc : Thread nD τ).loc main_arg1) i))
    ∧ (∀ i, IsReal (m ((c.tc : Thread nD τ).loc main_arg2) i)) ∧ (∀ i, IsReal (m ((c.tc : Thread nD τ).loc main_arg3) i))
    ∧ (∀ i, IsReal (m ((c.tc : Thread nD τ).loc main_arg4) i)) ∧ (∀ i, IsReal (m ((c.tc : Thread nD τ).loc main_arg5) i))
    ∧ (∀ i, IsReal (m ((c.tc : Thread nD τ).loc main_arg6) i)) ∧ (∀ i, IsReal (m ((c.tc : Thread nD τ).loc main_arg7) i))
    ∧ (∀ i, IsReal (m ((c.tc : Thread nD τ).loc main_arg8) i)) ∧ (∀ i, IsReal (m ((c.tc : Thread nD τ).loc main_arg9) i)) :=
  fn_real _ _ _ _ _ _ _ _ _ _ _ _ (congrFun (hpre c) ix0)

end PreK

end Cert.Finite

end
-- ==== Proof.Bridge.lean ====
/-
  The whole network as ONE function of the twelve arguments, written in the order the kernel computes it, and the
  reference's result as that function.

  With `S(F, e)` the masked segment sum of the rows of `F` over the edge list `e`, the kernel's first layer is
      L₀ = (mean of S(x, a) and S(x, b), taken as a sum times one half) · W₀ᵀ + b₀ ,
  its second layer the same of `L₀` with `W₁, b₁`, followed by the classifier head.  The reference applies
  `· Wᵀ + b` to each segment sum and averages the two results as `((0 + P) + Q) / 2`.  When the features, the
  weights and the biases are real numbers, every segment sum is real (a finite sum of entries of the features and
  zeros), so the layer law of `Cert.Spec` turns the reference's first layer into `L₀`; `L₀` is then real itself, its
  segment sums are real, and the law applies once more.  The head is the same text on both sides.
-/
import proofs.«122463_j55920474194543_1_alg».proof.Proof.Spec
import proofs.«122463_j55920474194543_1_alg».proof.Proof.RefSide
import proofs.«122463_j55920474194543_1_alg».proof.Proof.Finite

noncomputable section

namespace Cert.Bridge

open Idealize.ShloMosaic Idealize.ShloMosaic.ValueIdx Cert.Spec
open Cert.RefSide (seg SN64 SN SE2)
open Cert.ReferenceIdeal.Read
open scoped BigOperators

/-- The result: two logits per node. -/
abbrev SN2 : Shape := ⟨2, ![100000, 2]⟩

variable (x0 : SN64.Idx → EReal) (x1 : SN.Idx → EReal) (x2 : (⟨2, ![64, 64]⟩ : Shape).Idx → EReal) (x3 : (⟨1, ![64]⟩ : Shape).Idx → EReal)
  (x4 : (⟨2, ![1, 64]⟩ : Shape).Idx → EReal) (x5 : (⟨1, ![1]⟩ : Shape).Idx → EReal) (x6 : (⟨2, ![64, 1]⟩ : Shape).Idx → EReal)
  (x7 : (⟨1, ![64]⟩ : Shape).Idx → EReal) (x8 : (⟨2, ![2, 64]⟩ : Shape).Idx → EReal) (x9 : (⟨1, ![2]⟩ : Shape).Idx → EReal)
  (x10 x11 : SE2.Idx → BitVec 32)

/-- The first layer in the kernel's order: the affine map of the mean of the two segment sums of the features. -/
def layer0K : SN64.Idx → EReal :=
  arr (affine (meanMul (cur (seg x0 x1 x10)) (cur (seg x0 x1 x11))) (cur x2) (cur1 x3))

/-- The whole network in the kernel's order: the second layer of the first layer's result, then the head. -/
def outK : SN2.Idx → EReal :=
  arr (head (affine (meanMul (cur (seg (layer0K x0 x1 x2 x3 x10 x11) x1 x10)) (cur (seg (layer0K x0 x1 x2 x3 x10 x11) x1 x11)))
      (cur x4) (cur1 x5)) (cur x6) (cur1 x7) (cur x8) (cur1 x9))

section
variable {x0 x1 x2 x3 x4 x5 x6 x7 x8 x9 x10 x11}

/-- The segment sums of real features are real, entry by entry at coordinates. -/
theorem seg_cur_isReal {x : SN64.Idx → EReal} (hx : ∀ i, IsReal (x i)) (ts : SN.Idx → EReal) (ei : SE2.Idx → BitVec 32)
    (n : Fin 100000) (d : Fin 64) : IsReal (cur (seg x ts ei) n d) :=
  Cert.Finite.seg_isReal x ts ei hx (ix2 n d)

/-- On real features, weights and biases the first layer's result is real. -/
theorem layer0K_isReal (h0 : ∀ i, IsReal (x0 i)) (h2 : ∀ i, IsReal (x2 i)) (h3 : ∀ i, IsReal (x3 i)) (i : SN64.Idx) :
    IsReal (layer0K x0 x1 x2 x3 x10 x11 i) := by
  obtain ⟨n, q, rfl⟩ : ∃ (n : Fin 100000) (q : Fin 64), i = ix2 n q := ⟨i 0, i 1, eq_ix2 i⟩
  exact affine_isReal (meanMul_isReal (seg_cur_isReal h0 x1 x10) (seg_cur_isReal h0 x1 x11))
    (fun j d => h2 (ix2 j d)) (fun j => h3 (ix1 j)) n q

/-- The reference's first layer is the kernel's, on real features, weights and biases: the layer law. -/
theorem ref_layer0_eq (h0 : ∀ i, IsReal (x0 i)) (h2 : ∀ i, IsReal (x2 i)) (h3 : ∀ i, IsReal (x3 i)) :
    val_main_v76 (F := Ideal) x0 x1 x2 x3 x10 x11 = layer0K x0 x1 x2 x3 x10 x11 := by
  rw [Cert.RefSide.ref_layer0]
  unfold layer0K
  exact congrArg arr (layer_law (A := cur (seg x0 x1 x10)) (B := cur (seg x0 x1 x11)) (W := cur x2) (b := cur1 x3)
    (seg_cur_isReal h0 x1 x10) (seg_cur_isReal h0 x1 x11) (fun j d => h2 (ix2 j d)) (fun j => h3 (ix1 j))).symm

/-- THE REFERENCE'S RESULT is the kernel-order function of the arguments, when the features and the two layers'
    weights and biases are real: the layer law once per layer. -/
theorem ref_value (h0 : ∀ i, IsReal (x0 i)) (h2 : ∀ i, IsReal (x2 i)) (h3 : ∀ i, IsReal (x3 i))
    (h4 : ∀ i, IsReal (x4 i)) (h5 : ∀ i, IsReal (x5 i)) :
    val_main_v164 (F := Ideal) x0 x1 x2 x3 x4 x5 x6 x7 x8 x9 x10 x11 = outK x0 x1 x2 x3 x4 x5 x6 x7 x8 x9 x10 x11 := by
  rw [Cert.RefSide.ref_out, Cert.RefSide.ref_layer1, ref_layer0_eq h0 h2 h3]
  unfold outK
  rw [cur_arr]
  have hL : ∀ i, IsReal (layer0K x0 x1 x2 x3 x10 x11 i) := layer0K_isReal h0 h2 h3
  rw [layer_law (A := cur (seg (layer0K x0 x1 x2 x3 x10 x11) x1 x10)) (B := cur (seg (layer0K x0 x1 x2 x3 x10 x11) x1 x11))
    (W := cur x4) (b := cur1 x5) (seg_cur_isReal hL x1 x10) (seg_cur_isReal hL x1 x11)
    (fun j d => h4 (ix2 j d)) (fun j => h5 (ix1 j))]

end

end Cert.Bridge

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.KerRegions.lean ====
/-
  The first tiled kernel, from row blocks to the whole array.

  The kernel walks ten blocks of 10000 consecutive rows of a node-feature array.  At a block it reads the block's
  rows, reads the weight array and the bias row whole, and writes the same rows of its result: at row `n` and
  column `j`, the inner product of row `n` of the features with row `j` of the weights, plus the bias at `j` —
  one affine map.
  Every row of the result is written by exactly one block (the one numbered `n / 10000`), and what a block writes
  at a row depends on that row of the features only; so the result array after the ten blocks is the affine map
  of the whole feature array.
-/
import proofs.«122463_j55920474194543_1_alg».proof.Proof.Gen.KernelIdeal.Frame
import proofs.«122463_j55920474194543_1_alg».proof.Proof.Spec
import proofs.«122463_j55920474194543_1_alg».proof.Proof.LibMatmulRead
import Idealize.ShloMosaic.Lib.Pipeline.Value
import Idealize.ShloMosaic.Lib.ValueIdx
import Idealize.ShloMosaic.Lib.ValueLayout
import Idealize.ShloMosaic.PureOps.Ideal.Laws

noncomputable section

namespace Cert.KerRegions

open Idealize.ShloMosaic Idealize.ShloMosaic.TcCoe Idealize.SL.Sem Idealize.ShloMosaic.ValueIdx Cert.Spec
open Cert.KernelIdeal Cert.KernelIdeal.Gen
open Idealize.ShloMosaic.Pipeline (Dat)
open scoped BigOperators

/-! ## An entry of an affine map depends on its own row only -/

/-- If row `n` of `A` is row `n'` of `A'`, the affine maps agree there. -/
theorem affine_row {N N' J K : ℕ} (A : Fin N → Fin K → EReal) (A' : Fin N' → Fin K → EReal) (W : Fin J → Fin K → EReal)
    (b : Fin J → EReal) (n : Fin N) (n' : Fin N') (j : Fin J) (h : ∀ d, A n d = A' n' d) :
    affine A W b n j = affine A' W b n' j :=
  congrArg₂ (· + ·) (Finset.sum_congr rfl fun d _ => congrArg (· * W j d) (h d)) rfl

/-! ## What a block computes, entry by entry -/

/-- The first kernel's block result at row `p`, column `q`: the inner product of row `p` of the block with row `q`
    of the weights, plus the bias at `q`.  (The narrowing casts are the identity on extended reals.) -/
theorem pay0_apply (v0 : Vec Ideal S10000x64 .f32) (v3 : Vec Ideal S64x64 .f32) (v7 : Vec Ideal S1x64 .f32)
    (p : Fin 10000) (q : Fin 64) :
    k0_pay1 (F := Ideal) v0 v3 v7 (ix2 p q) = affine (cur v0) (cur v3) (row0 v7) p q := by
  unfold k0_pay1
  simp only [shapeCast_self]
  refine (addf_apply _ _ _).trans (congrArg₂ (· + ·) ?_ ?_)
  · exact matmul_transpose_ix2_apply dot_S10000x64_S64x64_S10000x64_1_0_0_1_n_n rfl rfl rfl rfl rfl rfl none _ _ _ p q
  · exact broadcastTo_1b_ab_apply v7 _ p q

section Regions
variable (V : (c : Dev nD) → (b : Ref sig .tc) → Buf (Elt Ideal) ((c : Thread nD τ).loc b))

/-! ## Blocks of rows -/

/-- The pair of zero offsets is the constant zero. -/
theorem hz : (![0, 0] : Fin 2 → Nat) = fun _ => 0 := funext fun a => by fin_cases a <;> rfl

/-- The block numbers at point `t`, decided over the ten points: the feature block and the result block are
    block `t` of the rows; the weights and the bias are read whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t` is rows `10000 t … 10000 t + 9999` of the feature array. -/
theorem iblk0_0_apply (c : Dev nD) (t : Fin cfg0.N) (p : Fin 10000) (d : Fin 64) (h : t.val * 10000 + p.val < 100000) :
    (iblk0 V c 0 t : Vec Ideal S10000x64 .f32) (ix2 p d)
      = (V c main_v64 : S100000x64.Idx → EReal) (ix2 ⟨t.val * 10000 + p.val, h⟩ d) := by
  obtain ⟨e0, e1, -⟩ := idx_facts0 t
  unfold iblk0
  rw [View.read_apply]
  show V c main_v64 _ = V c main_v64 _
  refine congrArg (V c main_v64) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * d.val = d.val; rw [e1]; omega

/-- The weight block at every point is the whole weight array. -/
theorem iblk0_1_eq (c : Dev nD) (t : Fin cfg0.N) :
    (iblk0 V c 1 t : Vec Ideal S64x64 .f32) = (V c main_arg2 : S64x64.Idx → EReal) := by
  obtain ⟨-, -, e0, e1, -⟩ := idx_facts0 t
  funext i
  unfold iblk0
  rw [View.read_apply]
  show V c main_arg2 _ = V c main_arg2 _
  refine congrArg (V c main_arg2) (funext fun a => Fin.ext ?_)
  match a with
  | ⟨0, _⟩ => show win0_1.index t (0 : Fin 2) * 64 + 1 * (i 0).val = (i 0).val; rw [e0]; omega
  | ⟨1, _⟩ => show win0_1.index t (1 : Fin 2) * 64 + 1 * (i 1).val = (i 1).val; rw [e1]; omega

/-- The bias block at every point is the whole bias row. -/
theorem iblk0_2_eq (c : Dev nD) (t : Fin cfg0.N) :
    (iblk0 V c 2 t : Vec Ideal S1x64 .f32) = (V c main_v65 : S1x64.Idx → EReal) := by
  obtain ⟨-, -, -, -, e0, e1, -⟩ := idx_facts0 t
  funext i
  unfold iblk0
  rw [View.read_apply]
  show V c main_v65 _ = V c main_v65 _
  refine congrArg (V c main_v65) (funext fun a => Fin.ext ?_)
  match a with
  | ⟨0, _⟩ => show win0_2.index t (0 : Fin 2) * 1 + 1 * (i 0).val = (i 0).val; rw [e0]; omega
  | ⟨1, _⟩ => show win0_2.index t (1 : Fin 2) * 64 + 1 * (i 1).val = (i 1).val; rw [e1]; omega

/-- The whole result of the first kernel: the affine map of the whole feature array. -/
abbrev G0 (c : Dev nD) : S100000x64.Idx → EReal :=
  arr (affine (cur (V c main_v64 : S100000x64.Idx → EReal)) (cur (V c main_arg2 : S64x64.Idx → EReal))
    (row0 (V c main_v65 : S1x64.Idx → EReal)))

/-- What point `t` writes back is rows `10000 t … 10000 t + 9999` of the whole result: the block's row `p` is row
    `10000 t + p` of the features, and an entry of the affine map depends on its own row of the features only. -/
theorem flushed0_eq (c : Dev nD) (t : Fin cfg0.N) :
    (dat0 V c).flushed 3 t = ((cfg0.win 3).blk t).view.read (Elt Ideal) (G0 V c) := by
  obtain ⟨-, -, -, -, -, -, e0, e1⟩ := idx_facts0 t
  have hN : t.val < 10 := Nat.lt_of_lt_of_eq t.isLt N_0
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  rw [iblk0_1_eq, iblk0_2_eq]
  funext j
  obtain ⟨p, q, rfl⟩ : ∃ (p : Fin 10000) (q : Fin 64), j = ix2 p q := ⟨j 0, j 1, eq_ix2 j⟩
  have hp : t.val * 10000 + p.val < 100000 := by have := p.isLt; omega
  have hemb : ((cfg0.win 3).blk t).view.emb (ix2 p q) = (ix2 ⟨t.val * 10000 + p.val, hp⟩ q : S100000x64.Idx) := by
    funext a; apply Fin.ext
    match a with
    | ⟨0, _⟩ => show win0_3.index t (0 : Fin 2) * 10000 + 1 * p.val = t.val * 10000 + p.val; rw [e0]; omega
    | ⟨1, _⟩ => show win0_3.index t (1 : Fin 2) * 64 + 1 * q.val = q.val; rw [e1]; omega
  rw [View.read_apply, hemb]
  refine (pay0_apply (iblk0 V c 0 t) (V c main_arg2) (V c main_v65) p q).trans ?_
  exact affine_row _ _ _ _ p ⟨t.val * 10000 + p.val, hp⟩ q fun d => iblk0_0_apply V c t p d hp

/-- Every row of the result is in some point's block: row `r` is in block `r / 10000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 10000 < cfg0.N := by rw [show cfg0.N = 10 from N_0]; omega
  obtain ⟨-, -, -, -, -, -, e0, e1⟩ := idx_facts0 ⟨(i 0).val / 10000, ht⟩
  refine ⟨⟨(i 0).val / 10000, ht⟩, flush0_3 _, ?_⟩
  show i ∈ ((View.whole main_v66).slice (win0_3.rect ⟨(i 0).val / 10000, ht⟩)).set
  rw [View.set_slice_whole, Rect.mem_set_unit]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e1]; omega

/-- THE FIRST KERNEL'S RESULT after its ten blocks: the affine map of the whole feature array. -/
theorem region0_final (c : Dev nD) :
    (dat0 (F := Ideal) V c).arrAt 3 cfg0.N
      = arr (affine (cur (V c main_v64)) (cur (V c main_arg2)) (row0 (V c main_v65))) :=
  (dat0 V c).arrAt_eq_of_cover 3 (G0 V c) (fun t _ => flushed0_eq V c t) cover0

end Regions

end Cert.KerRegions

end
-- ==== Proof.KerRegion1.lean ====
/-
  The second tiled kernel, from row blocks to the whole array.

  The kernel walks ten blocks of 10000 consecutive rows of a node-feature array.  At a block it reads the block's
  rows, reads its six small weight and bias arrays whole, and writes the same rows of its result: at row `n` and
  column `c`, three affine maps of row `n` of the features applied one after the other, with a clamp at zero after
  the second.  Since every row of the result is written by exactly one block (the one numbered `n / 10000`), and what
  a block writes at a row depends on that row of the features only, the result array after the ten blocks is the
  chain of the three maps applied to the whole feature array.
-/
import proofs.«122463_j55920474194543_1_alg».proof.Proof.Gen.KernelIdeal.Frame
import proofs.«122463_j55920474194543_1_alg».proof.Proof.Spec
import proofs.«122463_j55920474194543_1_alg».proof.Proof.LibMatmulRead
import Idealize.ShloMosaic.Lib.Pipeline.Value
import Idealize.ShloMosaic.Lib.ValueIdx
import Idealize.ShloMosaic.Lib.ValueLayout
import Idealize.ShloMosaic.PureOps.Ideal.Laws

noncomputable section

namespace Cert.KerRegion1

open Idealize.ShloMosaic Idealize.ShloMosaic.TcCoe Idealize.SL.Sem Idealize.ShloMosaic.ValueIdx Cert.Spec
open Cert.KernelIdeal Cert.KernelIdeal.Gen
open Idealize.ShloMosaic.Pipeline (Dat)
open scoped BigOperators

/-! ## An entry of an affine map depends on its own row only -/

/-- If row `n` of `A` is row `n'` of `A'`, the affine maps agree there. -/
theorem affine_row {N N' J K : ℕ} (A : Fin N → Fin K → EReal) (A' : Fin N' → Fin K → EReal) (W : Fin J → Fin K → EReal)
    (b : Fin J → EReal) (n : Fin N) (n' : Fin N') (j : Fin J) (h : ∀ d, A n d = A' n' d) :
    affine A W b n j = affine A' W b n' j :=
  congrArg₂ (· + ·) (Finset.sum_congr rfl fun d _ => congrArg (· * W j d) (h d)) rfl

/-- The same for the classifier head. -/
theorem head_row {N N' K J C : ℕ} (H : Fin N → Fin K → EReal) (H' : Fin N' → Fin K → EReal) (W1 : Fin J → Fin K → EReal)
    (b1 : Fin J → EReal) (W2 : Fin C → Fin J → EReal) (b2 : Fin C → EReal) (n : Fin N) (n' : Fin N') (c : Fin C)
    (h : ∀ k, H n k = H' n' k) : head H W1 b1 W2 b2 n c = head H' W1 b1 W2 b2 n' c :=
  affine_row _ _ W2 b2 n n' c fun d => congrArg (max · zeroW) (affine_row H H' W1 b1 n n' d h)

/-! ## What a block computes, entry by entry -/

/-- The second kernel's block result at row `p`, column `c`: three affine maps of row `p` of the block, one after
    the other, with the clamp at zero after the second. -/
theorem pay1_apply (v0 : Vec Ideal S10000x64 .f32) (v3 : Vec Ideal S1x64 .f32) (v7 : Vec Ideal S1x1 .f32)
    (v12 : Vec Ideal S64x1 .f32) (v16 : Vec Ideal S1x64 .f32) (v23 : Vec Ideal S2x64 .f32) (v27 : Vec Ideal S1x2 .f32)
    (p : Fin 10000) (c : Fin 2) :
    k1_pay1 (F := Ideal) v0 v3 v7 v12 v16 v23 v27 (ix2 p c)
      = head (affine (cur v0) (cur v3) (row0 v7)) (cur v12) (row0 v16) (cur v23) (row0 v27) p c := by
  unfold k1_pay1
  simp only [shapeCast_self]
  refine (addf_apply _ _ _).trans (congrArg₂ (· + ·) ?_ ?_)
  · refine (matmul_transpose_ix2_apply dot_S10000x64_S64x2_S10000x2_1_0_0_1_n_n rfl rfl rfl rfl rfl rfl none _ _ _ p c).trans ?_
    refine Finset.sum_congr rfl fun d _ => congrArg (· * _) ?_
    refine (maximumf_apply _ _ _).trans (congrArg₂ max ?_ rfl)
    refine (addf_apply _ _ _).trans (congrArg₂ (· + ·) ?_ ?_)
    · refine (matmul_transpose_ix2_apply dot_S10000x1_S1x64_S10000x64_1_0_0_1_n_n rfl rfl rfl rfl rfl rfl none _ _ _ p d).trans ?_
      refine Finset.sum_congr rfl fun e _ => congrArg (· * _) ?_
      refine (addf_apply _ _ _).trans (congrArg₂ (· + ·) ?_ ?_)
      · exact matmul_transpose_ix2_apply dot_S10000x64_S64x1_S10000x1_1_0_0_1_n_n rfl rfl rfl rfl rfl rfl none _ _ _ p e
      · exact broadcastTo_1b_ab_apply v7 _ p e
    · exact broadcastTo_1b_ab_apply v16 _ p d
  · exact broadcastTo_1b_ab_apply v27 _ p c

section Regions
variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-! ## The second kernel: blocks of rows -/

/-- The block numbers at point `t`, decided over the ten points: the feature block and the result block are
    block `t` of the rows; the six weight and bias arrays are read whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The feature block at point `t` is rows `10000 t … 10000 t + 9999` of the feature array. -/
theorem iblk1_0_apply (c : Dev nD) (t : Fin cfg1.N) (p : Fin 10000) (d : Fin 64) (h : t.val * 10000 + p.val < 100000) :
    (iblk1 V c 0 t : Vec Ideal S10000x64 .f32) (ix2 p d)
      = (V c main_v131 : S100000x64.Idx → EReal) (ix2 ⟨t.val * 10000 + p.val, h⟩ d) := by
  obtain ⟨e0, e1, -⟩ := idx_facts1 t
  unfold iblk1
  rw [View.read_apply]
  show V c main_v131 _ = V c main_v131 _
  refine congrArg (V c main_v131) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * d.val = d.val; rw [e1]; omega

/-- The block of the first weight row at every point is the whole array. -/
theorem iblk1_1_eq (c : Dev nD) (t : Fin cfg1.N) :
    (iblk1 V c 1 t : Vec Ideal S1x64 .f32) = (V c main_arg4 : S1x64.Idx → EReal) := by
  obtain ⟨-, -, e0, e1, -⟩ := idx_facts1 t
  funext i
  unfold iblk1
  rw [View.read_apply]
  show V c main_arg4 _ = V c main_arg4 _
  refine congrArg (V c main_arg4) (funext fun a => Fin.ext ?_)
  match a with
  | ⟨0, _⟩ => show win1_1.index t (0 : Fin 2) * 1 + 1 * (i 0).val = (i 0).val; rw [e0]; omega
  | ⟨1, _⟩ => show win1_1.index t (1 : Fin 2) * 64 + 1 * (i 1).val = (i 1).val; rw [e1]; omega

/-- The block of the first bias at every point is the whole array. -/
theorem iblk1_2_eq (c : Dev nD) (t : Fin cfg1.N) :
    (iblk1 V c 2 t : Vec Ideal S1x1 .f32) = (V c main_v132 : S1x1.Idx → EReal) := by
  obtain ⟨-, -, -, -, e0, e1, -⟩ := idx_facts1 t
  funext i
  unfold iblk1
  rw [View.read_apply]
  show V c main_v132 _ = V c main_v132 _
  refine congrArg (V c main_v132) (funext fun a => Fin.ext ?_)
  match a with
  | ⟨0, _⟩ => show win1_2.index t (0 : Fin 2) * 1 + 1 * (i 0).val = (i 0).val; rw [e0]; omega
  | ⟨1, _⟩ => show win1_2.index t (1 : Fin 2) * 1 + 1 * (i 1).val = (i 1).val; rw [e1]; omega

/-- The block of the second weight column at every point is the whole array. -/
theorem iblk1_3_eq (c : Dev nD) (t : Fin cfg1.N) :
    (iblk1 V c 3 t : Vec Ideal S64x1 .f32) = (V c main_arg6 : S64x1.Idx → EReal) := by
  obtain ⟨-, -, -, -, -, -, e0, e1, -⟩ := idx_facts1 t
  funext i
  unfold iblk1
  rw [View.read_apply]
  show V c main_arg6 _ = V c main_arg6 _
  refine congrArg (V c main_arg6) (funext fun a => Fin.ext ?_)
  match a with
  | ⟨0, _⟩ => show win1_3.index t (0 : Fin 2) * 64 + 1 * (i 0).val = (i 0).val; rw [e0]; omega
  | ⟨1, _⟩ => show win1_3.index t (1 : Fin 2) * 1 + 1 * (i 1).val = (i 1).val; rw [e1]; omega

/-- The block of the second bias row at every point is the whole array. -/
theorem iblk1_4_eq (c : Dev nD) (t : Fin cfg1.N) :
    (iblk1 V c 4 t : Vec Ideal S1x64 .f32) = (V c main_v133 : S1x64.Idx → EReal) := by
  obtain ⟨-, -, -, -, -, -, -, -, e0, e1, -⟩ := idx_facts1 t
  funext i
  unfold iblk1
  rw [View.read_apply]
  show V c main_v133 _ = V c main_v133 _
  refine congrArg (V c main_v133) (funext fun a => Fin.ext ?_)
  match a with
  | ⟨0, _⟩ => show win1_4.index t (0 : Fin 2) * 1 + 1 * (i 0).val = (i 0).val; rw [e0]; omega
  | ⟨1, _⟩ => show win1_4.index t (1 : Fin 2) * 64 + 1 * (i 1).val = (i 1).val; rw [e1]; omega

/-- The block of the third weight array at every point is the whole array. -/
theorem iblk1_5_eq (c : Dev nD) (t : Fin cfg1.N) :
    (iblk1 V c 5 t : Vec Ideal S2x64 .f32) = (V c main_arg8 : S2x64.Idx → EReal) := by
  obtain ⟨-, -, -, -, -, -, -, -, -, -, e0, e1, -⟩ := idx_facts1 t
  funext i
  unfold iblk1
  rw [View.read_apply]
  show V c main_arg8 _ = V c main_arg8 _
  refine congrArg (V c main_arg8) (funext fun a => Fin.ext ?_)
  match a with
  | ⟨0, _⟩ => show win1_5.index t (0 : Fin 2) * 2 + 1 * (i 0).val = (i 0).val; rw [e0]; omega
  | ⟨1, _⟩ => show win1_5.index t (1 : Fin 2) * 64 + 1 * (i 1).val = (i 1).val; rw [e1]; omega

/-- The block of the third bias row at every point is the whole array. -/
theorem iblk1_6_eq (c : Dev nD) (t : Fin cfg1.N) :
    (iblk1 V c 6 t : Vec Ideal S1x2 .f32) = (V c main_v134 : S1x2.Idx → EReal) := by
  obtain ⟨-, -, -, -, -, -, -, -, -, -, -, -, e0, e1, -⟩ := idx_facts1 t
  funext i
  unfold iblk1
  rw [View.read_apply]
  show V c main_v134 _ = V c main_v134 _
  refine congrArg (V c main_v134) (funext fun a => Fin.ext ?_)
  match a with
  | ⟨0, _⟩ => show win1_6.index t (0 : Fin 2) * 1 + 1 * (i 0).val = (i 0).val; rw [e0]; omega
  | ⟨1, _⟩ => show win1_6.index t (1 : Fin 2) * 2 + 1 * (i 1).val = (i 1).val; rw [e1]; omega

/-- The whole result of the second kernel: the three affine maps, with the clamp, of the whole feature array. -/
abbrev G1 (c : Dev nD) : S100000x2.Idx → EReal :=
  arr (head (affine (cur (V c main_v131 : S100000x64.Idx → EReal)) (cur (V c main_arg4 : S1x64.Idx → EReal))
      (row0 (V c main_v132 : S1x1.Idx → EReal)))
    (cur (V c main_arg6 : S64x1.Idx → EReal)) (row0 (V c main_v133 : S1x64.Idx → EReal))
    (cur (V c main_arg8 : S2x64.Idx → EReal)) (row0 (V c main_v134 : S1x2.Idx → EReal)))

/-- What point `t` writes back is rows `10000 t … 10000 t + 9999` of the whole result: the block's row `p` is row
    `10000 t + p` of the features, and an entry of the three maps depends on its own row of the features only. -/
theorem flushed1_eq (c : Dev nD) (t : Fin cfg1.N) :
    (dat1 V c).flushed 7 t = ((cfg1.win 7).blk t).view.read (Elt Ideal) (G1 V c) := by
  obtain ⟨-, -, -, -, -, -, -, -, -, -, -, -, -, -, e0, e1⟩ := idx_facts1 t
  have hN : t.val < 10 := Nat.lt_of_lt_of_eq t.isLt N_1
  show (cfg1.win 7).cut (grid1.coords t) ((dat1 V c).after 7 t) = _
  rw [after1_7]
  unfold out1_7
  rw [View.canon_unit_zero hz]
  simp only [View.ld_unit_zero (S := S10000x64) hz, View.ld_unit_zero (S := S1x64) hz, View.ld_unit_zero (S := S1x1) hz,
    View.ld_unit_zero (S := S64x1) hz, View.ld_unit_zero (S := S2x64) hz, View.ld_unit_zero (S := S1x2) hz]
  rw [iblk1_1_eq, iblk1_2_eq, iblk1_3_eq, iblk1_4_eq, iblk1_5_eq, iblk1_6_eq]
  funext j
  obtain ⟨p, q, rfl⟩ : ∃ (p : Fin 10000) (q : Fin 2), j = ix2 p q := ⟨j 0, j 1, eq_ix2 j⟩
  have hp : t.val * 10000 + p.val < 100000 := by have := p.isLt; omega
  have hemb : ((cfg1.win 7).blk t).view.emb (ix2 p q) = (ix2 ⟨t.val * 10000 + p.val, hp⟩ q : S100000x2.Idx) := by
    funext a; apply Fin.ext
    match a with
    | ⟨0, _⟩ => show win1_7.index t (0 : Fin 2) * 10000 + 1 * p.val = t.val * 10000 + p.val; rw [e0]; omega
    | ⟨1, _⟩ => show win1_7.index t (1 : Fin 2) * 2 + 1 * q.val = q.val; rw [e1]; omega
  rw [View.read_apply, hemb]
  refine (pay1_apply (iblk1 V c 0 t) (V c main_arg4) (V c main_v132) (V c main_arg6) (V c main_v133) (V c main_arg8)
    (V c main_v134) p q).trans ?_
  exact head_row _ _ _ _ _ _ p ⟨t.val * 10000 + p.val, hp⟩ q fun e =>
    affine_row _ _ _ _ p ⟨t.val * 10000 + p.val, hp⟩ e fun k => iblk1_0_apply V c t p k hp

/-- Every row of the result is in some point's block: row `r` is in block `r / 10000`. -/
theorem cover1 (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  have ht : (i 0).val / 10000 < cfg1.N := by rw [show cfg1.N = 10 from N_1]; omega
  obtain ⟨-, -, -, -, -, -, -, -, -, -, -, -, -, -, e0, e1⟩ := idx_facts1 ⟨(i 0).val / 10000, ht⟩
  refine ⟨⟨(i 0).val / 10000, ht⟩, flush1_7 _, ?_⟩
  show i ∈ ((View.whole main_v135).slice (win1_7.rect ⟨(i 0).val / 10000, ht⟩)).set
  rw [View.set_slice_whole, Rect.mem_set_unit]
  intro a
  match a with
  | ⟨0, _⟩ =>
    show win1_7.index ⟨(i 0).val / 10000, ht⟩ (0 : Fin 2) * 10000 ≤ (i 0).val
      ∧ (i 0).val < win1_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_7.index ⟨(i 0).val / 10000, ht⟩ (1 : Fin 2) * 2 ≤ (i 1).val
      ∧ (i 1).val < win1_7.index ⟨(i 0).val / 10000, ht⟩ (1 : Fin 2) * 2 + 2
    rw [e1]; omega

/-- THE SECOND KERNEL'S RESULT after its ten blocks: the three affine maps, with the clamp, of the whole feature array. -/
theorem region1_final (c : Dev nD) :
    (dat1 (F := Ideal) V c).arrAt 7 cfg1.N
      = arr (head (affine (cur (V c main_v131)) (cur (V c main_arg4)) (row0 (V c main_v132)))
              (cur (V c main_arg6)) (row0 (V c main_v133)) (cur (V c main_arg8)) (row0 (V c main_v134))) :=
  (dat1 V c).arrAt_eq_of_cover 7 (G1 V c) (fun t _ => flushed1_eq V c t) cover1

end Regions

end Cert.KerRegion1

end
-- ==== Proof.KerRun.lean ====
/-
  The kernel's run with its result named, and what the host operations before each of the two
  tiled regions leave in the buffers those regions read.

  The program is a chain of host operations, a tiled region (layer 0's affine map), more host
  operations, and a second tiled region (layer 1's affine map and the classifier head).  Its run
  ends with the output buffer holding what the second region's write-backs leave, and with every
  argument array as launched.

  The host operations before a region compute, from node features `F`, time stamps `ts` and the
  two edge lists, the mean  (S(F, ea) + S(F, eb)) * (1/2)  of two masked segment sums, and lay each
  bias vector out as a single row.  `S` is the same composition of host operations in the
  reference program, so the two readings are compared term by term, never evaluated.
-/
import proofs.«122463_j55920474194543_1_alg».proof.Proof.Gen.KernelIdeal.Frame
import proofs.«122463_j55920474194543_1_alg».proof.Proof.Gen.ReferenceIdeal.Read
import proofs.«122463_j55920474194543_1_alg».proof.Proof.Spec
import Idealize.ShloMosaic.Lib.StableHlo.Run
import Idealize.ShloMosaic.Lib.ValueIdx
import Idealize.ShloMosaic.Lib.ValueLayout

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Spec Cert.KernelIdeal Cert.KernelIdeal.Gen
open scoped BigOperators

local notation "𝕄" => MT nD τ sig Unit (Elt Ideal) ℕ (UR sig nD τ) ℕ

variable (m : (ℓ : Loc nD τ sig) → Buf (Elt Ideal) ℓ) (ρ : Dev nD → PrngReg)

/-! ## The run -/

-- the launch lemma's implicit arguments are found by unifying its conclusion with this one, which takes unfolding
-- plain definitions in a metavariable's type
set_option backward.isDefEq.respectTransparency.types false in
/-- From any memory with zero counters, every weakly fair execution of the program on the cores terminates, nothing
    faulting, and every final state has the output buffer at the last boundary's contents and every argument array as
    launched. -/
theorem value_run : θ_run defs (onTc (τ := τ) (main (F := Ideal))) ⟨m, fun _ => 0, ρ⟩ (fun r => ∀ c : Dev nD,
      r.2.mem ((c.tc : Thread nD τ).loc main_v135) = W12 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v135 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

/-! ## Names for the shapes and for the masked segment sum -/

/-- Node features, time stamps, an edge list. -/
abbrev SN64 : Shape := ⟨2, ![100000, 64]⟩
abbrev SN : Shape := ⟨1, ![100000]⟩
abbrev SE2 : Shape := ⟨2, ![2, 1600000]⟩

/-- The masked segment sum of the rows of `x` over the edge list `ei`: gather rows by source, keep an edge iff the
    source's time stamp is at most the target's, add onto the target's row.  It is the reference program's reading of
    this composition of host operations, as a function of (features, time stamps, edge list). -/
abbrev seg (x : SN64.Idx → EReal) (ts : SN.Idx → EReal) (ei : SE2.Idx → BitVec 32) : SN64.Idx → EReal :=
  Cert.ReferenceIdeal.Read.val_main_v30 (F := Ideal) x ts ei

/-- The array every entry of which is the word of one half. -/
abbrev halfArr : SN64.Idx → EReal := broadcastInDim S100000x64 ![] bcast_S_S100000x64 (constant (F := Ideal) S_ .f32 0x3F000000#32)

/-! ## What the first region finds in the buffers it reads

The host operations before the first region are five lines run one after the other from the launch memory.  A
buffer's contents at the region's entry are read by walking the lines from the last operation to the first: an
operation's own result buffer holds its function of its operands' buffers, any other buffer holds what it held. -/

section Entry0
variable (c : Dev nD)

/-- The aggregated features the first region multiplies by the weights: the mean, as a sum times one half, of the
    masked segment sums of the node features over the two edge lists.  Both segment sums are the reference program's
    composition of the same host operations, so once the lines are walked the two sides are the same term. -/
theorem V5_v64 : (V5 m ρ c main_v64 : SN64.Idx → EReal)
    = mulf (F := Ideal) (s := SN64) (φ := .f32) (addf (F := Ideal) (s := SN64) (φ := .f32)
        (seg (m ((c.tc : Thread nD τ).loc main_arg0)) (m ((c.tc : Thread nD τ).loc main_arg1)) (m ((c.tc : Thread nD τ).loc main_arg10)))
        (seg (m ((c.tc : Thread nD τ).loc main_arg0)) (m ((c.tc : Thread nD τ).loc main_arg1)) (m ((c.tc : Thread nD τ).loc main_arg11)))) halfArr := by
  show StableHlo.after hostOps0_4 (StableHlo.after hostOps0_3 (StableHlo.after hostOps0_2 (StableHlo.after hostOps0_1
    (StableHlo.after hostOps0 (W0 m ρ c))))) (Proc.devRef .tc main_v64) = _
  after_results_simp
  rfl

/-- No host operation writes the first layer's weight matrix: the region finds it as launched. -/
theorem V5_arg2 : V5 m ρ c main_arg2 = m ((c.tc : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  after_results_simp

/-- The first layer's bias, laid out as one row of 64 columns: column `j` of the row is entry `j` of the bias. -/
theorem V5_v65 : row0 (V5 m ρ c main_v65) = cur1 (m ((c.tc : Thread nD τ).loc main_arg3)) := by
  have e : (V5 m ρ c main_v65 : (⟨2, ![1, 64]⟩ : Shape).Idx → EReal)
      = shapeCast ⟨2, ![1, 64]⟩ (m ((c.tc : Thread nD τ).loc main_arg3) : (⟨1, ![64]⟩ : Shape).Idx → EReal) shapeCasts_S64_S1x64 := by
    show StableHlo.after hostOps0_4 (StableHlo.after hostOps0_3 (StableHlo.after hostOps0_2 (StableHlo.after hostOps0_1
      (StableHlo.after hostOps0 (W0 m ρ c))))) (Proc.devRef .tc main_v65) = _
    after_results_simp
    rfl
  funext j
  show V5 m ρ c main_v65 (ix2 0 j) = _
  rw [e]
  exact shapeCast_a_1a_apply _ _ 0 j

end Entry0

end Cert.KerRun

end
-- ==== Proof.KerRun11.lean ====
/-
  What region 1 of the kernel finds in its operands' buffers when it is entered.

  Between the two regions the host computes the mean `(S(h0, ea) + S(h0, eb)) * 0.5` of the two masked segment sums of
  region 0's result `h0` and recasts each bias `[n]` as a row `[1, n]`; the weights are read where they were launched.
  The buffer contents at region 1's entry are region 0's exit contents pushed through these host operations, each of
  which writes one fresh buffer and leaves every other as it was. So a weight's buffer holds its launch contents, a bias
  row holds the bias at `(0, j) ↦ j`, and the first operand holds the mean, whose two segment sums are the function
  `seg` of (region 0's result, the launched time stamps, the launched edge list).
-/
import proofs.«122463_j55920474194543_1_alg».proof.Proof.Gen.KernelIdeal.Frame
import proofs.«122463_j55920474194543_1_alg».proof.Proof.Gen.ReferenceIdeal.Read
import proofs.«122463_j55920474194543_1_alg».proof.Proof.Spec
import Idealize.ShloMosaic.Lib.StableHlo.Run
import Idealize.ShloMosaic.Lib.ValueIdx
import Idealize.ShloMosaic.Lib.ValueLayout

set_option maxRecDepth 16384

noncomputable section

namespace Cert.KerRun11

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.Spec
open Cert.KernelIdeal Cert.KernelIdeal.Gen

/-- Node features: 100000 rows of 64 columns. -/
abbrev SN64 : Shape := ⟨2, ![100000, 64]⟩
/-- One time stamp per node. -/
abbrev SN : Shape := ⟨1, ![100000]⟩
/-- An edge list: a row of sources and a row of destinations, 1600000 edges. -/
abbrev SE2 : Shape := ⟨2, ![2, 1600000]⟩

/-- The masked segment sum of the rows of `x` over the edge list `ei` (a row is gathered by an edge's source, kept iff
    the source's time stamp is at most the destination's, and added onto the destination's row), as one function of
    (features, time stamps, edge list). -/
abbrev seg (x : SN64.Idx → EReal) (ts : SN.Idx → EReal) (ei : SE2.Idx → BitVec 32) : SN64.Idx → EReal :=
  Cert.ReferenceIdeal.Read.val_main_v30 (F := Ideal) x ts ei

/-- The constant array one half. -/
abbrev halfArr : SN64.Idx → EReal := broadcastInDim S100000x64 ![] bcast_S_S100000x64 (constant (F := Ideal) S_ .f32 0x3F000000#32)

variable (m : (ℓ : Loc nD τ sig) → Buf (Elt Ideal) ℓ) (ρ : Dev nD → PrngReg)

/-! ## The arguments at region 0's exit

Every host operation writes a fresh buffer, never an argument, and region 0's arrays are the mean, the first weight,
its bias row and its result: any other argument's buffer is, at region 0's exit, what it was at launch. -/

/-- Argument 1 is written by no host operation before region 0 and is none of region 0's arrays: at region 0's
    exit its buffer still holds what it held at launch. -/
theorem W6_main_arg1 (c : Dev nD) : W6 m ρ c (Proc.devRef .tc main_arg1) = m ((c.tc : Thread nD τ).loc main_arg1) :=
  (W6_of_ne m ρ c main_arg1 (by decide)).trans (by
    show StableHlo.after hostOps0_4 (StableHlo.after hostOps0_3 (StableHlo.after hostOps0_2 (StableHlo.after hostOps0_1 (StableHlo.after hostOps0 (W0 m ρ c))))) (Proc.devRef .tc main_arg1) = _
    after_results_simp)

/-- Argument 10 is written by no host operation before region 0 and is none of region 0's arrays: at region 0's
    exit its buffer still holds what it held at launch. -/
theorem W6_main_arg10 (c : Dev nD) : W6 m ρ c (Proc.devRef .tc main_arg10) = m ((c.tc : Thread nD τ).loc main_arg10) :=
  (W6_of_ne m ρ c main_arg10 (by decide)).trans (by
    show StableHlo.after hostOps0_4 (StableHlo.after hostOps0_3 (StableHlo.after hostOps0_2 (StableHlo.after hostOps0_1 (StableHlo.after hostOps0 (W0 m ρ c))))) (Proc.devRef .tc main_arg10) = _
    after_results_simp)

/-- Argument 11 is written by no host operation before region 0 and is none of region 0's arrays: at region 0's
    exit its buffer still holds what it held at launch. -/
theorem W6_main_arg11 (c : Dev nD) : W6 m ρ c (Proc.devRef .tc main_arg11) = m ((c.tc : Thread nD τ).loc main_arg11) :=
  (W6_of_ne m ρ c main_arg11 (by decide)).trans (by
    show StableHlo.after hostOps0_4 (StableHlo.after hostOps0_3 (StableHlo.after hostOps0_2 (StableHlo.after hostOps0_1 (StableHlo.after hostOps0 (W0 m ρ c))))) (Proc.devRef .tc main_arg11) = _
    after_results_simp)

/-- Argument 4 is written by no host operation before region 0 and is none of region 0's arrays: at region 0's
    exit its buffer still holds what it held at launch. -/
theorem W6_main_arg4 (c : Dev nD) : W6 m ρ c (Proc.devRef .tc main_arg4) = m ((c.tc : Thread nD τ).loc main_arg4) :=
  (W6_of_ne m ρ c main_arg4 (by decide)).trans (by
    show StableHlo.after hostOps0_4 (StableHlo.after hostOps0_3 (StableHlo.after hostOps0_2 (StableHlo.after hostOps0_1 (StableHlo.after hostOps0 (W0 m ρ c))))) (Proc.devRef .tc main_arg4) = _
    after_results_simp)

/-- Argument 5 is written by no host operation before region 0 and is none of region 0's arrays: at region 0's
    exit its buffer still holds what it held at launch. -/
theorem W6_main_arg5 (c : Dev nD) : W6 m ρ c (Proc.devRef .tc main_arg5) = m ((c.tc : Thread nD τ).loc main_arg5) :=
  (W6_of_ne m ρ c main_arg5 (by decide)).trans (by
    show StableHlo.after hostOps0_4 (StableHlo.after hostOps0_3 (StableHlo.after hostOps0_2 (StableHlo.after hostOps0_1 (StableHlo.after hostOps0 (W0 m ρ c))))) (Proc.devRef .tc main_arg5) = _
    after_results_simp)

/-- Argument 6 is written by no host operation before region 0 and is none of region 0's arrays: at region 0's
    exit its buffer still holds what it held at launch. -/
theorem W6_main_arg6 (c : Dev nD) : W6 m ρ c (Proc.devRef .tc main_arg6) = m ((c.tc : Thread nD τ).loc main_arg6) :=
  (W6_of_ne m ρ c main_arg6 (by decide)).trans (by
    show StableHlo.after hostOps0_4 (StableHlo.after hostOps0_3 (StableHlo.after hostOps0_2 (StableHlo.after hostOps0_1 (StableHlo.after hostOps0 (W0 m ρ c))))) (Proc.devRef .tc main_arg6) = _
    after_results_simp)

/-- Argument 7 is written by no host operation before region 0 and is none of region 0's arrays: at region 0's
    exit its buffer still holds what it held at launch. -/
theorem W6_main_arg7 (c : Dev nD) : W6 m ρ c (Proc.devRef .tc main_arg7) = m ((c.tc : Thread nD τ).loc main_arg7) :=
  (W6_of_ne m ρ c main_arg7 (by decide)).trans (by
    show StableHlo.after hostOps0_4 (StableHlo.after hostOps0_3 (StableHlo.after hostOps0_2 (StableHlo.after hostOps0_1 (StableHlo.after hostOps0 (W0 m ρ c))))) (Proc.devRef .tc main_arg7) = _
    after_results_simp)

/-- Argument 8 is written by no host operation before region 0 and is none of region 0's arrays: at region 0's
    exit its buffer still holds what it held at launch. -/
theorem W6_main_arg8 (c : Dev nD) : W6 m ρ c (Proc.devRef .tc main_arg8) = m ((c.tc : Thread nD τ).loc main_arg8) :=
  (W6_of_ne m ρ c main_arg8 (by decide)).trans (by
    show StableHlo.after hostOps0_4 (StableHlo.after hostOps0_3 (StableHlo.after hostOps0_2 (StableHlo.after hostOps0_1 (StableHlo.after hostOps0 (W0 m ρ c))))) (Proc.devRef .tc main_arg8) = _
    after_results_simp)

/-- Argument 9 is written by no host operation before region 0 and is none of region 0's arrays: at region 0's
    exit its buffer still holds what it held at launch. -/
theorem W6_main_arg9 (c : Dev nD) : W6 m ρ c (Proc.devRef .tc main_arg9) = m ((c.tc : Thread nD τ).loc main_arg9) :=
  (W6_of_ne m ρ c main_arg9 (by decide)).trans (by
    show StableHlo.after hostOps0_4 (StableHlo.after hostOps0_3 (StableHlo.after hostOps0_2 (StableHlo.after hostOps0_1 (StableHlo.after hostOps0 (W0 m ρ c))))) (Proc.devRef .tc main_arg9) = _
    after_results_simp)

/-! ## The weights and the bias rows at region 1's entry -/

/-- Argument 4 as region 1 finds it: the launch contents (no host operation between the regions writes it). -/
theorem V11_arg4 (c : Dev nD) : V11 m ρ c main_arg4 = m ((c.tc : Thread nD τ).loc main_arg4) := by
  show StableHlo.after hostOps1_4 (StableHlo.after hostOps1_3 (StableHlo.after hostOps1_2 (StableHlo.after hostOps1_1 (StableHlo.after hostOps1 (W6 m ρ c))))) (Proc.devRef .tc main_arg4) = _
  after_results_simp
  exact W6_main_arg4 m ρ c

/-- Argument 6 as region 1 finds it: the launch contents (no host operation between the regions writes it). -/
theorem V11_arg6 (c : Dev nD) : V11 m ρ c main_arg6 = m ((c.tc : Thread nD τ).loc main_arg6) := by
  show StableHlo.after hostOps1_4 (StableHlo.after hostOps1_3 (StableHlo.after hostOps1_2 (StableHlo.after hostOps1_1 (StableHlo.after hostOps1 (W6 m ρ c))))) (Proc.devRef .tc main_arg6) = _
  after_results_simp
  exact W6_main_arg6 m ρ c

/-- Argument 8 as region 1 finds it: the launch contents (no host operation between the regions writes it). -/
theorem V11_arg8 (c : Dev nD) : V11 m ρ c main_arg8 = m ((c.tc : Thread nD τ).loc main_arg8) := by
  show StableHlo.after hostOps1_4 (StableHlo.after hostOps1_3 (StableHlo.after hostOps1_2 (StableHlo.after hostOps1_1 (StableHlo.after hostOps1 (W6 m ρ c))))) (Proc.devRef .tc main_arg8) = _
  after_results_simp
  exact W6_main_arg8 m ρ c

/-- The bias read by region 1 as a single row: the `[1]` array of argument 5 recast to `[1, 1]`, whose entry
    `(0, j)` is entry `j` of the argument. -/
theorem V11_v132 (c : Dev nD) : row0 (V11 m ρ c main_v132) = cur1 (m ((c.tc : Thread nD τ).loc main_arg5)) := by
  have e : (V11 m ρ c main_v132 : (⟨2, ![1, 1]⟩ : Shape).Idx → EReal)
      = shapeCast ⟨2, ![1, 1]⟩ (m ((c.tc : Thread nD τ).loc main_arg5)) shapeCasts_S1_S1x1 := by
    show StableHlo.after hostOps1_4 (StableHlo.after hostOps1_3 (StableHlo.after hostOps1_2 (StableHlo.after hostOps1_1 (StableHlo.after hostOps1 (W6 m ρ c))))) (Proc.devRef .tc main_v132) = _
    after_results_simp
    rw [W6_main_arg5]
    rfl
  funext j
  show V11 m ρ c main_v132 (ix2 0 j) = m ((c.tc : Thread nD τ).loc main_arg5) (ix1 j)
  rw [e]
  exact shapeCast_a_1a_apply _ _ 0 j

/-- The bias read by region 1 as a single row: the `[64]` array of argument 7 recast to `[1, 64]`, whose entry
    `(0, j)` is entry `j` of the argument. -/
theorem V11_v133 (c : Dev nD) : row0 (V11 m ρ c main_v133) = cur1 (m ((c.tc : Thread nD τ).loc main_arg7)) := by
  have e : (V11 m ρ c main_v133 : (⟨2, ![1, 64]⟩ : Shape).Idx → EReal)
      = shapeCast ⟨2, ![1, 64]⟩ (m ((c.tc : Thread nD τ).loc main_arg7)) shapeCasts_S64_S1x64 := by
    show StableHlo.after hostOps1_4 (StableHlo.after hostOps1_3 (StableHlo.after hostOps1_2 (StableHlo.after hostOps1_1 (StableHlo.after hostOps1 (W6 m ρ c))))) (Proc.devRef .tc main_v133) = _
    after_results_simp
    rw [W6_main_arg7]
    rfl
  funext j
  show V11 m ρ c main_v133 (ix2 0 j) = m ((c.tc : Thread nD τ).loc main_arg7) (ix1 j)
  rw [e]
  exact shapeCast_a_1a_apply _ _ 0 j

/-- The bias read by region 1 as a single row: the `[2]` array of argument 9 recast to `[1, 2]`, whose entry
    `(0, j)` is entry `j` of the argument. -/
theorem V11_v134 (c : Dev nD) : row0 (V11 m ρ c main_v134) = cur1 (m ((c.tc : Thread nD τ).loc main_arg9)) := by
  have e : (V11 m ρ c main_v134 : (⟨2, ![1, 2]⟩ : Shape).Idx → EReal)
      = shapeCast ⟨2, ![1, 2]⟩ (m ((c.tc : Thread nD τ).loc main_arg9)) shapeCasts_S2_S1x2 := by
    show StableHlo.after hostOps1_4 (StableHlo.after hostOps1_3 (StableHlo.after hostOps1_2 (StableHlo.after hostOps1_1 (StableHlo.after hostOps1 (W6 m ρ c))))) (Proc.devRef .tc main_v134) = _
    after_results_simp
    rw [W6_main_arg9]
    rfl
  funext j
  show V11 m ρ c main_v134 (ix2 0 j) = m ((c.tc : Thread nD τ).loc main_arg9) (ix1 j)
  rw [e]
  exact shapeCast_a_1a_apply _ _ 0 j

/-! ## The mean of the two segment sums at region 1's entry

Between the regions the host computes `(S(h0, ea) + S(h0, eb)) * 0.5`, where `h0` is region 0's result and `S` the masked
segment sum. The three steps are read from an arbitrary buffer contents `V` at region 0's exit: the first segment sum,
the second, and the mean of the two; each segment sum is the same chain of operations as `seg`, on `V`'s contents of
region 0's result, of the time stamps and of the edge list. -/

section Generic

variable (V : Valuation τ sig (Elt Ideal))

set_option maxHeartbeats 400000 in
/-- The segment sum over the first edge list. -/
theorem segA_at :
    (StableHlo.after hostOps1_3 (StableHlo.after hostOps1_2 (StableHlo.after hostOps1_1 (StableHlo.after hostOps1 V))) (Proc.devRef .tc main_v97) : SN64.Idx → EReal)
      = seg (V (Proc.devRef .tc main_v66)) (V (Proc.devRef .tc main_arg1)) (V (Proc.devRef .tc main_arg10)) := by
  after_results_simp
  rfl

set_option maxHeartbeats 400000 in
/-- The segment sum over the second edge list. -/
theorem segB_at :
    (StableHlo.after hostOps1_4 (StableHlo.after hostOps1_3 (StableHlo.after hostOps1_2 (StableHlo.after hostOps1_1 (StableHlo.after hostOps1 V)))) (Proc.devRef .tc main_v128) : SN64.Idx → EReal)
      = seg (V (Proc.devRef .tc main_v66)) (V (Proc.devRef .tc main_arg1)) (V (Proc.devRef .tc main_arg11)) := by
  after_results_simp
  rfl

set_option maxHeartbeats 400000 in
/-- The mean: the sum of the two segment sums times one half. -/
theorem mean_at :
    (StableHlo.after hostOps1_4 V (Proc.devRef .tc main_v131) : SN64.Idx → EReal)
      = mulf (F := Ideal) (s := SN64) (φ := .f32) (addf (F := Ideal) (s := SN64) (φ := .f32)
          (V (Proc.devRef .tc main_v97)) (StableHlo.after hostOps1_4 V (Proc.devRef .tc main_v128))) halfArr := by
  after_results_simp

end Generic

/-- Region 1's first operand: the mean of the two masked segment sums of region 0's result, over the launch contents of
    the time stamps and of the two edge lists. -/
theorem V11_v131 (c : Dev nD) : (V11 m ρ c main_v131 : SN64.Idx → EReal)
    = mulf (F := Ideal) (s := SN64) (φ := .f32) (addf (F := Ideal) (s := SN64) (φ := .f32)
        (seg (V6 m ρ c main_v66) (m ((c.tc : Thread nD τ).loc main_arg1)) (m ((c.tc : Thread nD τ).loc main_arg10)))
        (seg (V6 m ρ c main_v66) (m ((c.tc : Thread nD τ).loc main_arg1)) (m ((c.tc : Thread nD τ).loc main_arg11)))) halfArr := by
  have hA := segA_at (W6 m ρ c)
  have hB := segB_at (W6 m ρ c)
  rw [W6_main_arg1, W6_main_arg10] at hA
  rw [W6_main_arg1, W6_main_arg11] at hB
  show StableHlo.after hostOps1_4 (W10 m ρ c) (Proc.devRef .tc main_v131) = _
  rw [mean_at (W10 m ρ c)]
  exact congrArg₂ (fun a b => mulf (F := Ideal) (s := SN64) (φ := .f32) (addf (F := Ideal) (s := SN64) (φ := .f32) a b) halfArr) hA hB

end Cert.KerRun11

end
-- ==== Proof.KerValue.lean ====
/-
  The kernel's result array as the kernel-order function of the arguments.

  After the second pallas_call the result buffer holds what that call's ten row blocks wrote: the classifier head of the
  second layer's affine map, applied to the array the host built at the call's entry — the mean (a sum times one half) of
  the two masked segment sums of the FIRST call's output.  That output in turn is what the first call's ten row blocks
  wrote: the first layer's affine map of the mean of the two segment sums of the features.  The weights reach both calls
  as launched, and each bias as the single row of a reshape of the launched vector.
-/
import proofs.«122463_j55920474194543_1_alg».proof.Proof.Bridge
import proofs.«122463_j55920474194543_1_alg».proof.Proof.KerRegions
import proofs.«122463_j55920474194543_1_alg».proof.Proof.KerRegion1
import proofs.«122463_j55920474194543_1_alg».proof.Proof.KerRun
import proofs.«122463_j55920474194543_1_alg».proof.Proof.KerRun11

noncomputable section

namespace Cert.Bridge

open Idealize.ShloMosaic Idealize.ShloMosaic.TcCoe Idealize.SL.Sem Idealize.ShloMosaic.ValueIdx Cert.Spec
open Cert.RefSide (seg SN64 SN SE2)
open Cert.KernelIdeal Cert.KernelIdeal.Gen
open scoped BigOperators

/-- The mean of two arrays written as the host writes it — the sum times a broadcast one half — read at coordinates. -/
theorem cur_mean (A B : SN64.Idx → EReal) :
    cur (mulf (F := Ideal) (s := SN64) (φ := .f32) (addf (F := Ideal) (s := SN64) (φ := .f32) A B)
      (broadcastInDim S100000x64 ![] bcast_S_S100000x64 (constant (F := Ideal) S_ .f32 0x3F000000#32)))
      = meanMul (cur A) (cur B) := rfl

variable (m : (ℓ : Loc nD τ sig) → Buf (Elt Ideal) ℓ) (ρ : Dev nD → PrngReg)

/-- The first call's output array, as the second call's host stretch finds it: the first layer of the launched arguments. -/
theorem first_output (c : Dev nD) :
    (V6 m ρ c main_v66 : SN64.Idx → EReal)
      = layer0K (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg10)) (m ((c.tc : Thread nD τ).loc main_arg11)) := by
  refine (W6_arr m ρ c 3).trans ?_
  rw [Cert.KerRegions.region0_final (V5 m ρ) c, Cert.KerRun.V5_v64 m ρ c, Cert.KerRun.V5_arg2 m ρ c, Cert.KerRun.V5_v65 m ρ c, cur_mean]
  rfl

/-- THE KERNEL'S RESULT: the result buffer after the run is the kernel-order function of the launched arguments. -/
theorem kernel_value (c : Dev nD) :
    (W12 m ρ c (Proc.devRef .tc main_v135) : SN2.Idx → EReal)
      = outK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  refine (W12_arr m ρ c 7).trans ?_
  rw [Cert.KerRegion1.region1_final (V11 m ρ) c, Cert.KerRun11.V11_v131 m ρ c, Cert.KerRun11.V11_arg4 m ρ c, Cert.KerRun11.V11_v132 m ρ c,
    Cert.KerRun11.V11_arg6 m ρ c, Cert.KerRun11.V11_v133 m ρ c, Cert.KerRun11.V11_arg8 m ρ c, Cert.KerRun11.V11_v134 m ρ c, first_output m ρ c, cur_mean]
  rfl

end Cert.Bridge

end
-- ==== Proof.lean ====
/-
  The certificate of the two-layer temporal graph network: the Pallas kernel (two row-tiled dense calls around the
  host's gather / mask / segment-sum aggregation) against its jnp reference, over the extended reals.

  Both programs aggregate node features over two edge lists with the SAME masked segment sum.  The kernel averages
  the two aggregates first, as a sum times one half, and applies each layer's affine map once inside a pallas_call;
  the reference applies the affine map to each aggregate and averages the results as ((0 + P) + Q) / 2.  On finite
  inputs the two orders agree (an affine map commutes with an average — `Cert.Spec.layer_law`, which needs every
  entry real), layer after layer, and the classifier head is the same on both sides.
  The three frames: the kernel's two are the frame certificates of its two-call run; the reference's is its run with
  the result dropped.  The idealization rewrote nothing, so `preserves` holds trivially.  `algebraic`: the kernel's
  run names its result buffer (`Cert.KerRun.value_run`), which is the kernel-order function of the arguments
  (`Cert.Bridge.kernel_value`); the reference's run ends at its composed term, which is that same function under the
  precondition (`Cert.Bridge.ref_value` with `Cert.Finite.pre_real`).
-/
import proofs.«122463_j55920474194543_1_alg».proof.Defs
import proofs.«122463_j55920474194543_1_alg».proof.Proof.Gen.Kernel
import proofs.«122463_j55920474194543_1_alg».proof.Proof.Gen.Kernel.Skeleton
import proofs.«122463_j55920474194543_1_alg».proof.Proof.Gen.Kernel.Launch
import proofs.«122463_j55920474194543_1_alg».proof.Proof.Gen.Kernel.Points
import proofs.«122463_j55920474194543_1_alg».proof.Proof.Gen.Kernel.Frame
import proofs.«122463_j55920474194543_1_alg».proof.Proof.Gen.KernelIdeal
import proofs.«122463_j55920474194543_1_alg».proof.Proof.Gen.KernelIdeal.Skeleton
import proofs.«122463_j55920474194543_1_alg».proof.Proof.Gen.KernelIdeal.Launch
import proofs.«122463_j55920474194543_1_alg».proof.Proof.Gen.KernelIdeal.Points
import proofs.«122463_j55920474194543_1_alg».proof.Proof.Gen.KernelIdeal.Frame
import proofs.«122463_j55920474194543_1_alg».proof.Proof.Gen.ReferenceIdeal
import proofs.«122463_j55920474194543_1_alg».proof.Proof.Gen.Pre_finite_inputs
import proofs.«122463_j55920474194543_1_alg».proof.Proof.Gen.ReferenceIdeal.Run
import proofs.«122463_j55920474194543_1_alg».proof.Proof.Gen.ReferenceIdeal.Read
import proofs.«122463_j55920474194543_1_alg».proof.Proof.KerValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the kernel-order function of the (agreeing) arguments. -/
theorem algebraic : Cert.algebraic_KernelIdeal_ReferenceIdeal := by
  intro m ρ m' ρ' hpre hagree
  refine ⟨fun c => Cert.Bridge.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Bridge.kernel_value m ρ c), (h c).2⟩) (Cert.KerRun.value_run m ρ)
  · refine (θ_run Cert.ReferenceIdeal.defs _ _).mono (fun r h c => ⟨?_, (h c).2⟩)
      (Cert.ReferenceIdeal.Value.run (F := Ideal) m' ρ')
    obtain ⟨h0, -, h2, h3, h4, h5, -⟩ := Cert.Finite.pre_real m hpre c
    rw [(h c).1, Cert.ReferenceIdeal.Read.val_main_v164_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact Cert.Bridge.ref_value h0 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
